-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x4 : Shape := ⟨2, ![16777216, 4]⟩
abbrev S16777216x1 : Shape := ⟨2, ![16777216, 1]⟩
abbrev S16777216 : Shape := ⟨1, ![16777216]⟩
abbrev S_ : Shape := ⟨0, ![]⟩

class Facts : Prop where
  slices_S16777216x4_S16777216x1_0_0 : S16777216x4.Slices ![0, 0] S16777216x1
  shapeCasts_S16777216x1_S16777216 : S16777216x1.ShapeCasts S16777216
  slices_S16777216x4_S16777216x1_0_1 : S16777216x4.Slices ![0, 1] S16777216x1
  slices_S16777216x4_S16777216x1_0_3 : S16777216x4.Slices ![0, 3] S16777216x1
  bcast_S_S16777216x4 : S_.BroadcastsInDim S16777216x4 (![] : Fin 0 → Fin S16777216x4.rank)
  reducesTo_S16777216x4_S_d0_1 : S16777216x4.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v3 : FVec F S16777216 .f32) (main_v5 : FVec F S16777216 .f32) (main_v9 : IVec S_ 1) (main_v18 : IVec S_ 1) : IVec S_ 1 :=
  let main_v19 : IVec S_ 1 := andi main_v9 main_v18
  let main_v20 : FVec F S16777216 .f32 := Host.floor main_v3
  let main_v21 : IVec S16777216 1 := cmpf .oeq main_v3 main_v20
  let main_cst_3 : FVec F S_ .f32 := constant S_ .f32 0x00000000#32
  let main_v22 : FVec F S16777216 .f32 := broadcastInDim S16777216 ![] bcast_S_S16777216 main_cst_3
  let main_v23 : IVec S16777216 1 := cmpf .oge main_v3 main_v22
  let main_v24 : IVec S16777216 1 := andi main_v21 main_v23
  let main_cst_4 : FVec F S_ .f32 := constant S_ .f32 0x43F00000#32
  let main_v25 : FVec F S16777216 .f32 := broadcastInDim S16777216 ![] bcast_S_S16777216 main_cst_4
  let main_v26 : IVec S16777216 1 := cmpf .olt main_v3 main_v25
  let main_v27 : IVec S16777216 1 := andi main_v24 main_v26
  let main_c_5 : IVec S_ 1 := constantI S_ 1 1#1
  let main_v28 : IVec S_ 1 := (fun x v => Host.reduce IntOp.andi x v reducesTo_S16777216_S_d0 h_S_) main_v27 main_c_5
  let main_v29 : IVec S_ 1 := andi main_v19 main_v28
  let main_cst_6 : FVec F S_ .f32 := constant S_ .f32 0x3F800000#32
  let main_v30 : FVec F S16777216 .f32 := broadcastInDim S16777216 ![] bcast_S_S16777216 main_cst_6
  let main_v31 : IVec S16777216 1 := cmpf .oeq main_v5 main_v30
  let main_cst_7 : FVec F S_ .f32 := constant S_ .f32 0xBF800000#32
  let main_v32 : FVec F S16777216 .f32 := broadcastInDim S16777216 ![] bcast_S_S16777216 main_cst_7
  let main_v33 : IVec S16777216 1 := cmpf .oeq main_v5 main_v32
  let main_v34 : IVec S16777216 1 := ori main_v31 main_v33
  let main_c_8 : IVec S_ 1 := constantI S_ 1 1#1
  let main_v35 : IVec S_ 1 := (fun x v => Host.reduce IntOp.andi x v reducesTo_S16777216_S_d0 h_S_) main_v34 main_c_8
  let main_v36 : IVec S_ 1 := andi main_v29 main_v35
  main_v36

def fn {F : FTy → Type} [FloatOps F] (main_arg0 : FVec F S16777216x4 .f32) : IVec S_ 1 :=
  let main_v0 : FVec F S16777216x1 .f32 := (extractStridedSlice S16777216x1 ![0, 0] · slices_S16777216x4_S16777216x1_0_0) main_arg0
  let main_v1 : FVec F S16777216 .f32 := shapeCast S16777216 main_v0 shapeCasts_S16777216x1_S16777216
  let main_v2 : FVec F S16777216x1 .f32 := (extractStridedSlice S16777216x1 ![0, 1] · slices_S16777216x4_S16777216x1_0_1) main_arg0
  let main_v3 : FVec F S16777216 .f32 := shapeCast S16777216 main_v2 shapeCasts_S16777216x1_S16777216
  let main_v4 : FVec F S16777216x1 .f32 := (extractStridedSlice S16777216x1 ![0, 3] · slices_S16777216x4_S16777216x1_0_3) main_arg0
  let main_v5 : FVec F S16777216 .f32 := shapeCast S16777216 main_v4 shapeCasts_S16777216x1_S16777216
  let main_v6 : FVec F S16777216x4 .f32 := Host.absf main_arg0
  let main_cst : FVec F S_ .f32 := constant S_ .f32 0x7F800000#32
  let main_v7 : FVec F S16777216x4 .f32 := broadcastInDim S16777216x4 ![] bcast_S_S16777216x4 main_cst
  let main_v8 : IVec S16777216x4 1 := cmpf .olt main_v6 main_v7
  let main_c : IVec S_ 1 := constantI S_ 1 1#1
  let main_v9 : IVec S_ 1 := (fun x v => Host.reduce IntOp.andi x v reducesTo_S16777216x4_S_d0_1 h_S_) main_v8 main_c
  let main_v10 : FVec F S16777216 .f32 := Host.floor main_v1
  let main_v11 : IVec S16777216 1 := cmpf .oeq main_v1 main_v10
  let main_cst_0 : FVec F S_ .f32 := constant S_ .f32 0x00000000#32
  let main_v12 : FVec F S16777216 .f32 := broadcastInDim S16777216 ![] bcast_S_S16777216 main_cst_0
  let main_v13 : IVec S16777216 1 := cmpf .oge main_v1 main_v12
  let main_v14 : IVec S16777216 1 := andi main_v11 main_v13
  let main_cst_1 : FVec F S_ .f32 := constant S_ .f32 0x44200000#32
  let main_v15 : FVec F S16777216 .f32 := broadcastInDim S16777216 ![] bcast_S_S16777216 main_cst_1
  let main_v16 : IVec S16777216 1 := cmpf .olt main_v1 main_v15
  let main_v17 : IVec S16777216 1 := andi main_v14 main_v16
  let main_c_2 : IVec S_ 1 := constantI S_ 1 1#1
  let main_v18 : IVec S_ 1 := (fun x v => Host.reduce IntOp.andi x v reducesTo_S16777216_S_d0 h_S_) main_v17 main_c_2
  fn_part1 (F := F) main_v3 main_v5 main_v9 main_v18
-- ==== Kernel.lean ====
abbrev S16777216x4 : Shape := ⟨2, ![16777216, 4]⟩
abbrev S4x16777216 : Shape := ⟨2, ![4, 16777216]⟩
abbrev S2x960x640 : Shape := ⟨3, ![2, 960, 640]⟩
abbrev S4x4096 : Shape := ⟨2, ![4, 4096]⟩
abbrev S1x960x640 : Shape := ⟨3, ![1, 960, 640]⟩
abbrev S960x640 : Shape := ⟨2, ![960, 640]⟩
abbrev S1x4096 : Shape := ⟨2, ![1, 4096]⟩
abbrev S4096 : Shape := ⟨1, ![4096]⟩
abbrev S960x1 : Shape := ⟨2, ![960, 1]⟩
abbrev S960x4096 : Shape := ⟨2, ![960, 4096]⟩
abbrev S1x640 : Shape := ⟨2, ![1, 640]⟩
abbrev S4096x1 : Shape := ⟨2, ![4096, 1]⟩
abbrev S4096x640 : Shape := ⟨2, ![4096, 640]⟩
abbrev S_ : Shape := ⟨0, ![]⟩
abbrev S2x480x640 : Shape := ⟨3, ![2, 480, 640]⟩
abbrev S1x2x480x640 : Shape := ⟨4, ![1, 2, 480, 640]⟩

abbrev nBuf : Space → Nat
  | .hbm => 18
  | .vmem => 5
  | .smem => 0
  | _ => 0

abbrev bufTy : (tb : Table) → Fin (tcTables nBuf tb) → BufTy
  | .hbm, ⟨0, _⟩ => ⟨S16777216x4, .f32⟩
  | .hbm, ⟨1, _⟩ => ⟨S4x16777216, .f32⟩
  | .hbm, ⟨2, _⟩ => ⟨S2x960x640, .f32⟩
  | .hbm, ⟨3, _⟩ => ⟨S1x960x640, .f32⟩
  | .hbm, ⟨4, _⟩ => ⟨S960x640, .f32⟩
  | .hbm, ⟨5, _⟩ => ⟨S1x960x640, .f32⟩
  | .hbm, ⟨6, _⟩ => ⟨S960x640, .f32⟩
  | .hbm, ⟨7, _⟩ => ⟨S960x640, .f32⟩
  | .hbm, ⟨8, _⟩ => ⟨S_, .f32⟩
  | .hbm, ⟨9, _⟩ => ⟨S960x640, .f32⟩
  | .hbm, ⟨10, _⟩ => ⟨S960x640, .i1⟩
  | .hbm, ⟨11, _⟩ => ⟨S_, .f32⟩
  | .hbm, ⟨12, _⟩ => ⟨S_, .f32⟩
  | .hbm, ⟨13, _⟩ => ⟨S960x640, .f32⟩
  | .hbm, ⟨14, _⟩ => ⟨S960x640, .f32⟩
  | .hbm, ⟨15, _⟩ => ⟨S960x640, .f32⟩
  | .hbm, ⟨16, _⟩ => ⟨S2x480x640, .f32⟩
  | .hbm, ⟨17, _⟩ => ⟨S1x2x480x640, .f32⟩
  | .local _ .vmem, ⟨0, _⟩ => ⟨S4x4096, .f32⟩
  | .local _ .vmem, ⟨1, _⟩ => ⟨S4x4096, .f32⟩
  | .local _ .vmem, ⟨2, _⟩ => ⟨S1x960x640, .f32⟩
  | .local _ .vmem, ⟨3, _⟩ => ⟨S1x960x640, .f32⟩
  | .local _ .vmem, ⟨4, _⟩ => ⟨S960x640, .f32⟩
  | _, _ => ⟨S16777216x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2048], ![false, false]⟩

def k0_cond2 (i : grid0.Coords) : BitVec 1 :=
  let arg1 : BitVec 32 := BitVec.ofNat 32 (i 1).val
  let c2047_i32 : BitVec 32 := 2047#32
  let v43 : BitVec 1 := Scalar.cmpi .eq arg1 c2047_i32
  let v44 : BitVec 32 := Scalar.extui v43
  let c0_i32_8 : BitVec 32 := 0#32
  let v45 : BitVec 1 := Scalar.cmpi .ne v44 c0_i32_8
  v45

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x960x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  transposes_S16777216x4_S4x16777216_1_0 : S16777216x4.Transposes [1, 0] S4x16777216
  inb_S960x640_S960x640_0_0 : ∀ a, (![0, 0] : Fin 2 → Nat) a + S960x640.size a ≤ S960x640.size a
  h_S960x640 : 0 < S960x640.numel
  shapeCasts_S960x640_S960x640 : S960x640.ShapeCasts S960x640
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  slices_S4x4096_o0_0_S1x4096 : S4x4096.Slices ![0, 0] S1x4096
  shapeCasts_S1x4096_S4096 : S1x4096.ShapeCasts S4096
  slices_S4x4096_o1_0_S1x4096 : S4x4096.Slices ![1, 0] S1x4096
  slices_S4x4096_o3_0_S1x4096 : S4x4096.Slices ![3, 0] S1x4096
  iota_S960x1_d0_w32 : S960x1.Iotas .tc 32 [0]
  shapeCasts_S4096_S1x4096 : S4096.ShapeCasts S1x4096
  broadcasts_S960x1_S960x4096 : S960x1.Broadcasts S960x4096
  broadcasts_S1x4096_S960x4096 : S1x4096.Broadcasts S960x4096
  natLt_1_32 : 1 < 32
  bitsLt_bf16_f32 : FTy.bits .bf16 < FTy.bits .f32
  iota_S1x640_d1_w32 : S1x640.Iotas .tc 32 [1]
  shapeCasts_S4096_S4096x1 : S4096.ShapeCasts S4096x1
  broadcasts_S1x640_S4096x640 : S1x640.Broadcasts S4096x640
  broadcasts_S4096x1_S4096x640 : S4096x1.Broadcasts S4096x640
  inb_S1x960x640_S1x960x640_0_0_0 : ∀ a, (![0, 0, 0] : Fin 3 → Nat) a + S1x960x640.size a ≤ S1x960x640.size a
  h_S1x960x640 : 0 < S1x960x640.numel
  shapeCasts_S1x960x640_S960x640 : S1x960x640.ShapeCasts S960x640
  shapeCasts_S960x640_S1x960x640 : S960x640.ShapeCasts S1x960x640
  slices_S2x960x640_S1x960x640_0_0_0 : S2x960x640.Slices ![0, 0, 0] S1x960x640
  slices_S2x960x640_S1x960x640_1_0_0 : S2x960x640.Slices ![1, 0, 0] S1x960x640
  bcast_S_S960x640 : S_.BroadcastsInDim S960x640 (![] : Fin 0 → Fin S960x640.rank)
  shapeCasts_S960x640_S2x480x640 : S960x640.ShapeCasts S2x480x640
  bcast_S2x480x640_S1x2x480x640_1_2_3 : S2x480x640.BroadcastsInDim S1x2x480x640 (![1, 2, 3] : Fin 3 → Fin S1x2x480x640.rank)
  dot_S960x4096_S4096x640_S960x640_1_0_0_1_n_n_wf : DotDims.WF S960x4096 S4096x640 S960x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x16777216.size a
  hwx0_0 : ∀ i : grid0.Coords, EltTy.bits .f32 = 32 ∨ (Rect.block (s := S4x16777216) S4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x960x640.size a ≤ S2x960x640.size a
  hwx0_1 : ∀ i : grid0.Coords, EltTy.bits .f32 = 32 ∨ (Rect.block (s := S2x960x640) S1x960x640.size (cc0_transform_1 i) (hinb0_1 i)).WholeWords (EltTy.packing .f32)

variable [Facts₀]

def dot_S960x4096_S4096x640_S960x640_1_0_0_1_n_n : DotDims S960x4096 S4096x640 S960x640 where
  lhsContracting := [1]
  rhsContracting := [0]
  lhsNonContracting := [0]
  rhsNonContracting := [1]
  lhsBatch := []
  rhsBatch := []
  wf := dot_S960x4096_S4096x640_S960x640_1_0_0_1_n_n_wf

abbrev win0_0 : Pipeline.Window sig grid0 :=
  Pipeline.Window.ofSpec (Memref.whole main_v0) S4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x960x640.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16777216x4 : Shape := ⟨2, ![16777216, 4]⟩
abbrev S4x16777216 : Shape := ⟨2, ![4, 16777216]⟩
abbrev S1x16777216 : Shape := ⟨2, ![1, 16777216]⟩
abbrev S16777216 : Shape := ⟨1, ![16777216]⟩
abbrev S_ : Shape := ⟨0, ![]⟩
abbrev S614400 : Shape := ⟨1, ![614400]⟩
abbrev S16777216x1 : Shape := ⟨2, ![16777216, 1]⟩
abbrev S1x2x480x640 : Shape := ⟨4, ![1, 2, 480, 640]⟩

abbrev nBuf : Space → Nat
  | .hbm => 49
  | .vmem => 0
  | .smem => 0
  | _ => 0

abbrev bufTy : (tb : Table) → Fin (tcTables nBuf tb) → BufTy
  | .hbm, ⟨0, _⟩ => ⟨S16777216x4, .f32⟩
  | .hbm, ⟨1, _⟩ => ⟨S4x16777216, .f32⟩
  | .hbm, ⟨2, _⟩ => ⟨S1x16777216, .f32⟩
  | .hbm, ⟨3, _⟩ => ⟨S16777216, .f32⟩
  | .hbm, ⟨4, _⟩ => ⟨S1x16777216, .f32⟩
  | .hbm, ⟨5, _⟩ => ⟨S16777216, .f32⟩
  | .hbm, ⟨6, _⟩ => ⟨S1x16777216, .f32⟩
  | .hbm, ⟨7, _⟩ => ⟨S16777216, .f32⟩
  | .hbm, ⟨8, _⟩ => ⟨S1x16777216, .f32⟩
  | .hbm, ⟨9, _⟩ => ⟨S16777216, .f32⟩
  | .hbm, ⟨10, _⟩ => ⟨S_, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S16777216, .i32⟩
  | .hbm, ⟨29, _⟩ => ⟨S_, .f32⟩
  | .hbm, ⟨30, _⟩ => ⟨S614400, .f32⟩
  | .hbm, ⟨31, _⟩ => ⟨S_, .f32⟩
  | .hbm, ⟨32, _⟩ => ⟨S16777216, .f32⟩
  | .hbm, ⟨33, _⟩ => ⟨S_, .i32⟩
  | .hbm, ⟨34, _⟩ => ⟨S16777216, .i32⟩
  | .hbm, ⟨35, _⟩ => ⟨S16777216, .i1⟩
  | .hbm, ⟨36, _⟩ => ⟨S_, .i32⟩
  | .hbm, ⟨37, _⟩ => ⟨S16777216, .i32⟩
  | .hbm, ⟨38, _⟩ => ⟨S16777216, .i32⟩
  | .hbm, ⟨39, _⟩ => ⟨S16777216, .i32⟩
  | .hbm, ⟨40, _⟩ => ⟨S16777216x1, .i32⟩
  | .hbm, ⟨41, _⟩ => ⟨S614400, .f32⟩
  | .hbm, ⟨42, _⟩ => ⟨S_, .f32⟩
  | .hbm, ⟨43, _⟩ => ⟨S614400, .f32⟩
  | .hbm, ⟨44, _⟩ => ⟨S614400, .i1⟩
  | .hbm, ⟨45, _⟩ => ⟨S_, .f32⟩
  | .hbm, ⟨46, _⟩ => ⟨S614400, .f32⟩
  | .hbm, ⟨47, _⟩ => ⟨S614400, .f32⟩
  | .hbm, ⟨48, _⟩ => ⟨S1x2x480x640, .f32⟩
  | _, _ => ⟨S16777216x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  transposes_S16777216x4_S4x16777216_1_0 : S16777216x4.Transposes [1, 0] S4x16777216
  slices_S4x16777216_S1x16777216_0_0 : S4x16777216.Slices ![0, 0] S1x16777216
  shapeCasts_S1x16777216_S16777216 : S1x16777216.ShapeCasts S16777216
  slices_S4x16777216_S1x16777216_1_0 : S4x16777216.Slices ![1, 0] S1x16777216
  slices_S4x16777216_S1x16777216_2_0 : S4x16777216.Slices ![2, 0] S1x16777216
  slices_S4x16777216_S1x16777216_3_0 : S4x16777216.Slices ![3, 0] S1x16777216
  reducesTo_S16777216_S_d0 : S16777216.ReducesTo [0] S_
  h_S_ : 0 < S_.numel
  bcast_S_S16777216 : S_.BroadcastsInDim S16777216 (![] : Fin 0 → Fin S16777216.rank)
  bcast_S_S614400 : S_.BroadcastsInDim S614400 (![] : Fin 0 → Fin S614400.rank)
  bcast_S16777216_S16777216x1_0 : S16777216.BroadcastsInDim S16777216x1 (![0] : Fin 1 → Fin S16777216x1.rank)
  shapeCasts_S614400_S1x2x480x640 : S614400.ShapeCasts S1x2x480x640
  scatter_S614400_S16777216x1_S16777216_n_0_0_1_wf : ScatterDims.WF S614400 S16777216x1 S16777216 [] [0] [0] 1

variable [Facts₀]

def scatter_S614400_S16777216x1_S16777216_n_0_0_1 : ScatterDims S614400 S16777216x1 S16777216 where
  updateWindowDims := []
  insertedWindowDims := [0]
  scatterDimsToOperandDims := [0]
  indexVectorDim := 1
  wf := scatter_S614400_S16777216x1_S16777216_n_0_0_1_wf

class Facts : Prop extends Facts₀ where

variable [Facts]
-- ==== Proof.KernelPieces.lean ====
/-
  What one grid point's body leaves behind, as values.  The body keeps a [960, 640] accumulator in scratch: at the
  first point of a run of 2048 points it stores zeros into it; at every point it adds to it the product of the
  point's two one-hot matrices (the payload `k0_pay3` of the point's event block and of what the accumulator held);
  at the run's last point it also copies the accumulator into the output block.  Each case's stores cover their
  buffer whole, so what the buffer holds afterwards is the last store's payload of what the loads read.
-/
import proofs.«152134_j55078660604232_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator ends at the payload of the event block and of what it held. -/
theorem sout_B (c : Dev nD) (i : grid0.Coords) (a2 : Memref sig .tc .vmem S4x4096 .f32) (h2 : a2.IsWhole)
    (a3 : Memref sig .tc .vmem S1x960x640 .f32) (h3 : a3.IsWhole) (a4 : Memref sig .tc .vmem S960x640 .f32) (h4 : a4.IsWhole)
    (hc0 : ¬cond0_0 i) (hc1 : ¬cond0_1 i) (x0 : Vec F S4x4096 .f32) (xs0 : Vec F S960x640 .f32) :
    sout0_B_0 c i a2 h2 a3 h3 a4 h4 hc0 hc1 x0 xs0 = k0_pay3 x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz2]
  simp only [View.readAt_eq_ld, h2.read_unread, h4.read_unread, View.ld_unit_zero (S := S4x4096) hz2,
    View.ld_unit_zero (S := S960x640) hz2]

/-- A run's last point leaves the accumulator as a middle point does; -/
theorem sout_C (c : Dev nD) (i : grid0.Coords) (a2 : Memref sig .tc .vmem S4x4096 .f32) (h2 : a2.IsWhole)
    (a3 : Memref sig .tc .vmem S1x960x640 .f32) (h3 : a3.IsWhole) (a4 : Memref sig .tc .vmem S960x640 .f32) (h4 : a4.IsWhole)
    (hc0 : ¬cond0_0 i) (hc1 : cond0_1 i) (x0 : Vec F S4x4096 .f32) (xs0 : Vec F S960x640 .f32) :
    sout0_C_0 c i a2 h2 a3 h3 a4 h4 hc0 hc1 x0 xs0 = k0_pay3 x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz2]
  simp only [View.readAt_eq_ld, h2.read_unread, h4.read_unread, View.ld_unit_zero (S := S4x4096) hz2,
    View.ld_unit_zero (S := S960x640) hz2]

/-- and copies it, with a leading unit axis, into the output block. -/
theorem out_C (c : Dev nD) (i : grid0.Coords) (a2 : Memref sig .tc .vmem S4x4096 .f32) (h2 : a2.IsWhole)
    (a3 : Memref sig .tc .vmem S1x960x640 .f32) (h3 : a3.IsWhole) (a4 : Memref sig .tc .vmem S960x640 .f32) (h4 : a4.IsWhole)
    (hc0 : ¬cond0_0 i) (hc1 : cond0_1 i) (x0 : Vec F S4x4096 .f32) (xs0 : Vec F S960x640 .f32) :
    out0_C_1 c i a2 h2 a3 h3 a4 h4 hc0 hc1 x0 xs0 = k0_pay1 (k0_pay3 x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz3, View.readCov_unit_zero (S := S960x640) _ hz2]
  simp only [View.readAt_eq_ld, h2.read_unread, h4.read_unread, View.ld_unit_zero (S := S4x4096) hz2,
    View.ld_unit_zero (S := S960x640) hz2]

/-- A run's first point: zeros are stored first, so the payload's accumulator operand is the zero block. -/
theorem sout_A (c : Dev nD) (i : grid0.Coords) (a2 : Memref sig .tc .vmem S4x4096 .f32) (h2 : a2.IsWhole)
    (a3 : Memref sig .tc .vmem S1x960x640 .f32) (h3 : a3.IsWhole) (a4 : Memref sig .tc .vmem S960x640 .f32) (h4 : a4.IsWhole)
    (hc0 : cond0_0 i) (hc1 : ¬cond0_1 i) (x0 : Vec F S4x4096 .f32) :
    sout0_A_0 c i a2 h2 a3 h3 a4 h4 hc0 hc1 x0 = k0_pay3 x0 (k0_pay2 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S960x640) hz2, View.readCov_unit_zero (S := S960x640) _ hz2]
  simp only [View.readAt_eq_ld, h2.read_unread, View.ld_unit_zero (S := S4x4096) hz2]

end Cert.KernelIdeal.KV

end
-- ==== Proof.KernelAcc.lean ====
/-
  The accumulator over a run of grid points.  Points 2048 g .. 2048 g + 2047 form the run of output block g: the
  first resets the scratch accumulator, each adds its event block's product to it, and the last copies it out.
  So after point t the scratch holds the fold of the payload over the points of t's run up to t, and the block
  written back at a run's last point is that fold over the whole run.
-/
import proofs.«152134_j55078660604232_2_alg».proof.Proof.KernelPieces

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

/-- What the scratch accumulator holds after point `n`. -/
def acc (c : Dev nD) (n : ℕ) (h : n < cfg0.N) : Vec F S960x640 .f32 := (outsAt0 m c n h).2

/-- At a run's first point the accumulator is the payload over the zero block. -/
theorem acc_reset (c : Dev nD) (n : ℕ) (h : n < cfg0.N) (h0 : n % 2048 = 0) :
    acc m c n h = k0_pay3 (iblk m c 0 ⟨n, h⟩) (k0_pay2 (F := F)) := by
  have h1 : ¬(⟨n, h⟩ : Fin cfg0.N).val % 2048 = 2047 := by dsimp only; omega
  unfold acc
  rw [outsAt0_A m c ⟨n, h⟩ h0 h1]
  dsimp only
  exact sout_A (F := F) c (grid0.coords ⟨n, h⟩) (ms0_0 ⟨n, h⟩) (hs0_0 ⟨n, h⟩) (ms0_1 ⟨n, h⟩) (hs0_1 ⟨n, h⟩) scM0_0
    (Memref.isWhole_whole _) ((hcond0_0 ⟨n, h⟩).mpr h0) (fun h' => h1 ((hcond0_1 ⟨n, h⟩).mp h')) (iblk m c 0 ⟨n, h⟩)

/-- At any other point it is the payload over what the point before left. -/
theorem acc_step (c : Dev nD) (n : ℕ) (h : n + 1 < cfg0.N) (h0 : ¬(n + 1) % 2048 = 0) :
    acc m c (n + 1) h = k0_pay3 (iblk m c 0 ⟨n + 1, h⟩) (acc m c n (Nat.lt_of_succ_lt h)) := by
  have h0' : ¬(⟨n + 1, h⟩ : Fin cfg0.N).val % 2048 = 0 := h0
  unfold acc
  by_cases h1 : (⟨n + 1, h⟩ : Fin cfg0.N).val % 2048 = 2047
  · rw [outsAt0_C m c ⟨n + 1, h⟩ h0' h1]
    dsimp only
    exact sout_C (F := F) c (grid0.coords ⟨n + 1, h⟩) (ms0_0 ⟨n + 1, h⟩) (hs0_0 ⟨n + 1, h⟩) (ms0_1 ⟨n + 1, h⟩) (hs0_1 ⟨n + 1, h⟩) scM0_0
      (Memref.isWhole_whole _) (fun h' => h0' ((hcond0_0 ⟨n + 1, h⟩).mp h')) ((hcond0_1 ⟨n + 1, h⟩).mpr h1) (iblk m c 0 ⟨n + 1, h⟩)
      (outsAt0 m c n (Nat.lt_of_succ_lt h)).2
  · rw [outsAt0_B m c ⟨n + 1, h⟩ h0' h1]
    dsimp only
    exact sout_B (F := F) c (grid0.coords ⟨n + 1, h⟩) (ms0_0 ⟨n + 1, h⟩) (hs0_0 ⟨n + 1, h⟩) (ms0_1 ⟨n + 1, h⟩) (hs0_1 ⟨n + 1, h⟩) scM0_0
      (Memref.isWhole_whole _) (fun h' => h0' ((hcond0_0 ⟨n + 1, h⟩).mp h')) (fun h' => h1 ((hcond0_1 ⟨n + 1, h⟩).mp h')) (iblk m c 0 ⟨n + 1, h⟩)
      (outsAt0 m c n (Nat.lt_of_succ_lt h)).2

/-- So after point `t` it is the fold over `t`'s run up to `t`. -/
theorem acc_eq_fold (c : Dev nD) (t : ℕ) (ht : t < cfg0.N) (h' : 2048 * (t / 2048) + t % 2048 < cfg0.N) :
    acc m c t ht
      = Pipeline.accAt (fun n h => k0_pay3 (iblk m c 0 ⟨n, h⟩) (k0_pay2 (F := F)))
          (fun n h a => k0_pay3 (iblk m c 0 ⟨n, h⟩) a) (2048 * (t / 2048)) (t % 2048) h' :=
  Pipeline.eq_accAt_of_mod (acc m c) 2048 _ _ (acc_reset m c) (acc_step m c) (by decide) t ht h'

/-- The output block at a run's last point is the accumulator there, with a leading unit axis. -/
theorem out_last (c : Dev nD) (t : Fin cfg0.N) (h1 : t.val % 2048 = 2047) :
    (outsAt0 m c t.val t.isLt).1 = k0_pay1 (acc m c t.val t.isLt) := by
  have h0 : ¬t.val % 2048 = 0 := by omega
  unfold acc
  rw [outsAt0_C m c t h0 h1]
  dsimp only
  exact (out_C (F := F) c (grid0.coords t) (ms0_0 t) (hs0_0 t) (ms0_1 t) (hs0_1 t) scM0_0
      (Memref.isWhole_whole _) (fun h' => h0 ((hcond0_0 t).mp h')) ((hcond0_1 t).mpr h1) (iblk m c 0 t)
      (outsAt0 m c (t.val - 1) (Nat.lt_of_le_of_lt (Nat.sub_le _ _) t.isLt)).2).trans
    (congrArg k0_pay1 (sout_C (F := F) c (grid0.coords t) (ms0_0 t) (hs0_0 t) (ms0_1 t) (hs0_1 t) scM0_0
      (Memref.isWhole_whole _) (fun h' => h0 ((hcond0_0 t).mp h')) ((hcond0_1 t).mpr h1) (iblk m c 0 t)
      (outsAt0 m c (t.val - 1) (Nat.lt_of_le_of_lt (Nat.sub_le _ _) t.isLt)).2).symm)

end Cert.KernelIdeal.KV

end
-- ==== Proof.KernelArr.lean ====
/-
  The kernel's output array and what the host does with it.  Output block g (a [1, 960, 640] slab of the
  [2, 960, 640] array) is written back once, after the last point 2048 g + 2047 of its run, with the accumulator
  of that point; the two slabs tile the array.  After the region the host adds the two slabs, compares the sum
  with zero, selects 1 or 0, and re-lays the [960, 640] result as [1, 2, 480, 640].
-/
import proofs.«152134_j55078660604232_2_alg».proof.Proof.KernelAcc
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KV

open Cert.KernelIdeal Cert.KernelIdeal.Gen

variable {F : FTy → Type} [FloatOps F]
variable (m : (ℓ : Loc nD τ sig) → Buf (Elt F) ℓ) (ρ : Dev nD → PrngReg)

/-- The last point of run `g` is a grid point. -/
theorem lastpt_lt (g : ℕ) (hg : g < 2) : 2048 * g + 2047 < cfg0.N := by
  rw [show cfg0.N = 4096 from N_0]; omega

/-- The accumulator does not depend on how its point is written. -/
theorem acc_congr (c : Dev nD) (n n' : ℕ) (h : n < cfg0.N) (h' : n' < cfg0.N) (e : n = n') (i i' : S960x640.Idx) (ei : i = i') :
    acc m c n h i = acc m c n' h' i' := by
  subst e; subst ei; rfl

/-- The output array after the run: slab `g` is the accumulator after the last point of run `g`. -/
def outArr (c : Dev nD) : Buf (Elt F) ((c : Thread nD τ).loc main_v1) := fun j =>
  acc m c (2048 * (j 0).val + 2047) (lastpt_lt _ (j 0).isLt) (ix2 ⟨(j 1).val, (j 1).isLt⟩ ⟨(j 2).val, (j 2).isLt⟩)

/-- The output window's block index at point `t`: slab `t / 2048`, whole. -/
theorem idx_out : ∀ t : Fin cfg0.N, win0_1.index t (0 : Fin 3) = t.val / 2048 ∧ win0_1.index t (1 : Fin 3) = 0
    ∧ win0_1.index t (2 : Fin 3) = 0 :=
  (by decide +kernel : ∀ t : Fin grid0.N, _)

/-- What a run's last point writes back is its slab of `outArr`. -/
theorem flushed_eq (c : Dev nD) (t : Fin cfg0.N) (hf : (cfg0.win 1).flush t = true) :
    (dats m 0 c).flushed 1 t = ((cfg0.win 1).blk t).view.read (Elt F) (outArr m c) := by
  have h1 : t.val % 2048 = 2047 := (flush0_1 t).mp hf
  show (cfg0.win 1).cut (grid0.coords t) ((dats m 0 c).after 1 t) = _
  rw [after0_1, out_last m c t h1]
  obtain ⟨e0, e1, e2⟩ := idx_out t
  funext y
  show k0_pay1 (acc m c t.val t.isLt) y = outArr m c (((cfg0.win 1).blk t).view.emb y)
  have hy0 : (y 0).val < 1 := (y 0).isLt
  have hy1 : (y 1).val < 960 := (y 1).isLt
  have hy2 : (y 2).val < 640 := (y 2).isLt
  unfold k0_pay1 outArr
  dsimp only
  refine (shapeCast_apply _ shapeCasts_S960x640_S1x960x640 y (ix2 ⟨(y 1).val, hy1⟩ ⟨(y 2).val, hy2⟩) ?_).trans ?_
  · rw [Shape.rowMajor_val_two, Shape.rowMajor_val_three]
    show (y 1).val * 640 + (y 2).val = ((y 0).val * 960 + (y 1).val) * 640 + (y 2).val
    omega
  · refine acc_congr m c _ _ _ _ ?_ _ _ ?_
    · show t.val = 2048 * (win0_1.index t (0 : Fin 3) * 1 + 1 * (y 0).val) + 2047
      omega
    · funext a
      match a with
      | ⟨0, _⟩ => exact Fin.ext (show (y 1).val = win0_1.index t (1 : Fin 3) * 960 + 1 * (y 1).val by omega)
      | ⟨1, _⟩ => exact Fin.ext (show (y 2).val = win0_1.index t (2 : Fin 3) * 640 + 1 * (y 2).val by omega)

/-- An index of the array is in point `t`'s block iff each coordinate is in the block's range on its axis. -/
theorem mem_blk (t : Fin cfg0.N) (i : S2x960x640.Idx) :
    i ∈ ((cfg0.win 1).blk t).view.set ↔ ∀ a : Fin 3, win0_1.index t a * S1x960x640.size a ≤ (i a).val ∧ (i a).val < win0_1.index t a * S1x960x640.size a + S1x960x640.size a := by
  show i ∈ ((View.whole main_v1).slice (win0_1.rect t)).set ↔ _
  rw [View.set_slice_whole, Rect.mem_set_unit]
  exact Iff.rfl

/-- The two slabs tile the array: it ends holding `outArr`. -/
theorem final (c : Dev nD) : (dats m 0 c).arrAt 1 cfg0.N = outArr m c :=
  (dats m 0 c).arrAt_eq_of_cover 1 (outArr m c) (flushed_eq m c) fun i => by
    have hi0 : (i 0).val < 2 := (i 0).isLt
    have hi1 : (i 1).val < 960 := (i 1).isLt
    have hi2 : (i 2).val < 640 := (i 2).isLt
    refine ⟨⟨2048 * (i 0).val + 2047, lastpt_lt _ hi0⟩, (flush0_1 _).mpr (by dsimp only; omega), ?_⟩
    obtain ⟨e0, e1, e2⟩ := idx_out ⟨2048 * (i 0).val + 2047, lastpt_lt _ hi0⟩
    rw [mem_blk]
    intro a
    match a with
    | ⟨0, _⟩ => show win0_1.index _ (0 : Fin 3) * 1 ≤ (i 0).val ∧ (i 0).val < win0_1.index _ (0 : Fin 3) * 1 + 1
                rw [e0]; dsimp only; omega
    | ⟨1, _⟩ => show win0_1.index _ (1 : Fin 3) * 960 ≤ (i 1).val ∧ (i 1).val < win0_1.index _ (1 : Fin 3) * 960 + 960
                rw [e1]; omega
    | ⟨2, _⟩ => show win0_1.index _ (2 : Fin 3) * 640 ≤ (i 2).val ∧ (i 2).val < win0_1.index _ (2 : Fin 3) * 640 + 640
                rw [e2]; omega

end Cert.KernelIdeal.KV

end
-- ==== Proof.KernelTail.lean ====
/-
  The host's lines after the region, as one function of the kernel's output array: add the two [960, 640] slabs,
  compare the sum with zero, select 1 where it is positive and 0 elsewhere, and re-lay the result as
  [1, 2, 480, 640]; and the kernel program's run with its result at that function of the array the run leaves.
-/
import proofs.«152134_j55078660604232_2_alg».proof.Proof.KernelArr

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KV

open Cert.KernelIdeal Cert.KernelIdeal.Gen

variable {F : FTy → Type} [FloatOps F]
variable (m : (ℓ : Loc nD τ sig) → Buf (Elt F) ℓ) (ρ : Dev nD → PrngReg)

/-- The host's lines after the region, applied to the output array. -/
def tail (o : (⟨S2x960x640, .f32⟩ : BufTy).Contents (Elt F)) : (⟨S1x2x480x640, .f32⟩ : BufTy).Contents (Elt F) :=
  broadcastInDim S1x2x480x640 ![1, 2, 3] bcast_S2x480x640_S1x2x480x640_1_2_3
    (shapeCast S2x480x640
      (select
        (cmpf .ogt
          (addf
            (shapeCast S960x640 (extractStridedSlice S1x960x640 ![0, 0, 0] o slices_S2x960x640_S1x960x640_0_0_0)
              shapeCasts_S1x960x640_S960x640)
            (shapeCast S960x640 (extractStridedSlice S1x960x640 ![1, 0, 0] o slices_S2x960x640_S1x960x640_1_0_0)
              shapeCasts_S1x960x640_S960x640))
          (broadcastInDim S960x640 ![] bcast_S_S960x640 (constant (F := F) S_ .f32 0x00000000#32)))
        (broadcastInDim S960x640 ![] bcast_S_S960x640 (constant (F := F) S_ .f32 0x3F800000#32))
        (broadcastInDim S960x640 ![] bcast_S_S960x640 (constant (F := F) S_ .f32 0x00000000#32)))
      shapeCasts_S960x640_S2x480x640)

/-- The result buffer after the host's last lines is that function of the array the region leaves. -/
theorem tail_eq (c : Dev nD) :
    Pipeline.afterTail₀ cfgs (dats m) 0 (V0 m) [hostOps1, hostOps1_1, hostOps1_2] c main_v11 = tail (outArr m c) := by
  unfold Pipeline.afterTail₀
  simp only [hostOps1, hostOps1_1, hostOps1_2, List.flatten_cons, List.flatten_nil, List.append_nil, List.cons_append, List.nil_append]
  after_results
  have hw : Pipeline.withArrays (cfgs 0).spec c (V0 m c) (fun w => (dats m 0 c).arrAt w (cfgs 0).N) (Proc.tc.devRef main_v1)
      = outArr m c := (Pipeline.withArrays_arr spec0 launch0.win.arr_inj c _ _ 1).trans (final m c)
  rw [hw]
  rfl

/-- The kernel program's run, read: the result at `tail` of the output array, the argument unchanged. -/
theorem run : θ_run defs (onTc (τ := τ) (main (F := F))) ⟨m, fun _ => 0, ρ⟩ fun r => ∀ c : Dev nD,
      r.2.mem ((c.tc : Thread nD τ).loc main_v11) = tail (outArr m c)
      ∧ r.2.mem ((c.tc : Thread nD τ).loc main_arg0) = m ((c.tc : Thread nD τ).loc main_arg0) :=
  (θ_run defs _ _).mono (fun _ h c =>
      ⟨((h c).2 main_v11 (Pipeline.mem_restRefs_of main_v11 (by decide) (by decide))).trans (tail_eq m c),
       ((h c).2 main_arg0 (Pipeline.mem_restRefs_of main_arg0 (by decide) (by decide))).trans (W_main_arg0 m (dats m) c)⟩)
    (run_main m ρ)

end Cert.KernelIdeal.KV

end
-- ==== Proof.Hist.lean ====
/-
  The mathematics both programs compute: an event histogram over a 2 x 480 x 640 grid of cells, binarised.
  An event is a row (x, y, t, p) of the [16777216, 4] input.  Under the contract (x and y pixel coordinates of
  the 640 x 480 sensor, the polarity p one of -1 and +1) event n lands in the cell (q, y, x) with q = 1 for
  p = +1 and q = 0 for p = -1; the result at a cell is 1 when some event lands in it and 0 otherwise.
  Both programs reach it through the number of events landing in the cell, a finite sum of zeros and ones.
-/
import Idealize.ShloMosaic.PureOps.Ideal
import Idealize.ShloMosaic.Lib.ValueIdx

noncomputable section

open scoped BigOperators

namespace Hist

open Idealize.ShloMosaic Idealize.ShloMosaic.ValueIdx

/-- The events array's shape. -/
abbrev SE : Shape := ⟨2, ![16777216, 4]⟩
/-- The result's shape. -/
abbrev SO : Shape := ⟨4, ![1, 2, 480, 640]⟩

/-- The contract on the events: x an integer in [0, 640), y an integer in [0, 480), p one of +1 and -1. -/
def Contract (E : SE.Idx → EReal) : Prop :=
  ∀ n : Fin 16777216, ∃ xi yi : ℤ, 0 ≤ xi ∧ xi < 640 ∧ 0 ≤ yi ∧ yi < 480 ∧
    E (ix2 n 0) = ((xi : ℝ) : EReal) ∧ E (ix2 n 1) = ((yi : ℝ) : EReal) ∧
    (E (ix2 n 3) = ((1 : ℝ) : EReal) ∨ E (ix2 n 3) = ((-1 : ℝ) : EReal))

/-- Event `n` lands in cell `(q, y, x)`. -/
def Hits (E : SE.Idx → EReal) (n : Fin 16777216) (q : Fin 2) (y : Fin 480) (x : Fin 640) : Prop :=
  E (ix2 n 0) = ((x.val : ℝ) : EReal) ∧ E (ix2 n 1) = ((y.val : ℝ) : EReal) ∧
    E (ix2 n 3) = (((if q.val = 1 then 1 else -1 : ℝ)) : EReal)

open Classical in
/-- The number of events landing in a cell, as an extended real. -/
def count (E : SE.Idx → EReal) (q : Fin 2) (y : Fin 480) (x : Fin 640) : EReal :=
  ∑ n : Fin 16777216, if Hits E n q y x then (1 : EReal) else 0

open Classical in
/-- The binarised histogram: 1 at a cell some event lands in, 0 elsewhere. -/
def G (E : SE.Idx → EReal) : SO.Idx → EReal :=
  fun i => if 0 < count E (i 1) (i 2) (i 3) then 1 else 0

theorem count_nonneg (E : SE.Idx → EReal) (q : Fin 2) (y : Fin 480) (x : Fin 640) : 0 ≤ count E q y x := by
  classical
  unfold count
  refine Finset.sum_nonneg fun n _ => ?_
  split
  · exact zero_le_one
  · exact le_refl _

/-- A count that is not positive is zero. -/
theorem count_eq_zero_of_not_pos (E : SE.Idx → EReal) (q : Fin 2) (y : Fin 480) (x : Fin 640)
    (h : ¬ 0 < count E q y x) : count E q y x = 0 :=
  le_antisymm (not_lt.mp h) (count_nonneg E q y x)

/-- A sum over the events, block by block: event `n = 4096 t + b` is entry `b` of block `t`. -/
theorem sum_blocks {M : Type*} [AddCommMonoid M] (f : Fin 16777216 → M) :
    ∑ n, f n = ∑ t : Fin 4096, ∑ b : Fin 4096, f ⟨t.val * 4096 + b.val, by omega⟩ := by
  calc ∑ n, f n = ∑ p : Fin 4096 × Fin 4096, f ((finProdFinEquiv : Fin 4096 × Fin 4096 ≃ Fin 16777216) p) :=
        (Fintype.sum_equiv (finProdFinEquiv : Fin 4096 × Fin 4096 ≃ Fin 16777216) _ _ (fun _ => rfl)).symm
    _ = ∑ t : Fin 4096, ∑ b : Fin 4096, f ((finProdFinEquiv : Fin 4096 × Fin 4096 ≃ Fin 16777216) (t, b)) :=
        Fintype.sum_prod_type _
    _ = _ := by
        refine Finset.sum_congr rfl fun t _ => Finset.sum_congr rfl fun b _ => congrArg f (Fin.ext ?_)
        show b.val + 4096 * t.val = t.val * 4096 + b.val
        omega

end Hist

end
-- ==== Proof.PreDecode.lean ====
/-
  The precondition, read back.  The printed predicate holds exactly when every entry of the events is finite,
  every x is an integer in [0, 640), every y is an integer in [0, 480) and every p is +1 or -1.  Here the last three
  conjuncts are decoded, event by event, into the contract the histogram's mathematics is stated under.
-/
import proofs.«152134_j55078660604232_2_alg».proof.Pre_finite_inputs
import proofs.«152134_j55078660604232_2_alg».proof.Proof.Hist
import Idealize.ShloMosaic.PureOps.Ideal
import Idealize.ShloMosaic.Lib.ValueIdx
import Idealize.ShloMosaic.Lib.Pipeline.Value
import Idealize.ShloMosaic.Lib.ReduceAll

noncomputable section

namespace Cert.PreDecode

open Idealize.ShloMosaic Idealize.ShloMosaic.ValueIdx
open Cert.Pre_finite_inputs

/-! ### The literals the predicate compares against, as extended reals -/

theorem ofBits_zero : Ideal.ofBits .f32 0x00000000#32 = 0 := by
  simp [Ideal.ofBits, Ideal.ieee]

theorem ofBits_640 : Ideal.ofBits .f32 0x44200000#32 = (((640 : ℤ) : ℝ) : EReal) := by
  simp [Ideal.ofBits, Ideal.ieee, -EReal.coe_mul]; norm_num

theorem ofBits_480 : Ideal.ofBits .f32 0x43F00000#32 = (((480 : ℤ) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

/-! ### A comparison whose word is 1 -/

private theorem ofBool_eq_one {b : Bool} : BitVec.ofBool b = 1#1 ↔ b = true := by cases b <;> decide

theorem cmp_oeq {x y : EReal} : Ideal.cmp .oeq x y = 1#1 ↔ x = y := by
  show BitVec.ofBool (decide (x = y)) = 1#1 ↔ _
  rw [ofBool_eq_one, decide_eq_true_iff]

theorem cmp_oge {x y : EReal} : Ideal.cmp .oge x y = 1#1 ↔ y ≤ x := by
  show BitVec.ofBool (decide (y ≤ x)) = 1#1 ↔ _
  rw [ofBool_eq_one, decide_eq_true_iff]

theorem cmp_olt {x y : EReal} : Ideal.cmp .olt x y = 1#1 ↔ x < y := by
  show BitVec.ofBool (decide (x < y)) = 1#1 ↔ _
  rw [ofBool_eq_one, decide_eq_true_iff]

/-! ### One entry's words -/

/-- An extended real that equals its own floor, is at least 0 and is below the integer N is an integer of [0, N):
    each infinity fails one of the two range tests, and a real that is its own floor is that integer. -/
theorem coord_of_words (e : EReal) (B : BitVec 32) (N : ℤ) (hB : Ideal.ofBits .f32 B = ((N : ℝ) : EReal))
    (h : IntOp.andi (IntOp.andi (Ideal.cmp .oeq e (Ideal.liftRound Int.floor e))
          (Ideal.cmp .oge e (Ideal.ofBits .f32 0x00000000#32))) (Ideal.cmp .olt e (Ideal.ofBits .f32 B)) = 1#1) :
    ∃ xi : ℤ, 0 ≤ xi ∧ xi < N ∧ e = ((xi : ℝ) : EReal) := by
  obtain ⟨h1, hlt⟩ := IntOp.andi_eq_one.1 h
  obtain ⟨heq, hge⟩ := IntOp.andi_eq_one.1 h1
  rw [cmp_oeq] at heq
  rw [cmp_oge, ofBits_zero] at hge
  rw [cmp_olt, hB] at hlt
  induction e using EReal.rec with
  | bot => exact absurd hge (by simp)
  | top => exact absurd hlt (by simp)
  | coe r =>
    rw [Ideal.liftRound_coe, EReal.coe_eq_coe_iff] at heq
    refine ⟨⌊r⌋, ?_, ?_, by rw [← heq]⟩
    · have : (0 : ℝ) ≤ r := by exact_mod_cast hge
      rw [heq] at this
      exact_mod_cast this
    · have : r < (N : ℝ) := by exact_mod_cast hlt
      rw [heq] at this
      exact_mod_cast this

/-- An extended real that equals the literal 1 or the literal -1. -/
theorem sign_of_words (e : EReal)
    (h : IntOp.ori (Ideal.cmp .oeq e (Ideal.ofBits .f32 0x3F800000#32)) (Ideal.cmp .oeq e (Ideal.ofBits .f32 0xBF800000#32)) = 1#1) :
    e = ((1 : ℝ) : EReal) ∨ e = ((-1 : ℝ) : EReal) := by
  rcases IntOp.ori_eq_one.1 h with h | h
  · left; rw [cmp_oeq, ofBits_one] at h; exact h
  · right; rw [cmp_oeq, ofBits_neg_one] at h; exact h

/-! ### The same at an entry of a column -/

theorem coord_of_col (v : FVec Ideal S16777216 .f32) (B : BitVec 32) (N : ℤ) (hB : Ideal.ofBits .f32 B = ((N : ℝ) : EReal))
    (hb0 hbB : S_.BroadcastsInDim S16777216 (![] : Fin 0 → Fin S16777216.rank)) (n : Fin 16777216)
    (h : andi (andi (cmpf .oeq v (Host.floor v)) (cmpf .oge v (broadcastInDim S16777216 ![] hb0 (constant S_ .f32 0x00000000#32))))
          (cmpf .olt v (broadcastInDim S16777216 ![] hbB (constant S_ .f32 B))) (ix1 n) = 1#1) :
    ∃ xi : ℤ, 0 ≤ xi ∧ xi < N ∧ v (ix1 n) = ((xi : ℝ) : EReal) :=
  coord_of_words (v (ix1 n)) B N hB h

theorem sign_of_col (v : FVec Ideal S16777216 .f32)
    (hb1 hb2 : S_.BroadcastsInDim S16777216 (![] : Fin 0 → Fin S16777216.rank)) (n : Fin 16777216)
    (h : ori (cmpf .oeq v (broadcastInDim S16777216 ![] hb1 (constant S_ .f32 0x3F800000#32)))
          (cmpf .oeq v (broadcastInDim S16777216 ![] hb2 (constant S_ .f32 0xBF800000#32))) (ix1 n) = 1#1) :
    v (ix1 n) = ((1 : ℝ) : EReal) ∨ v (ix1 n) = ((-1 : ℝ) : EReal) :=
  sign_of_words (v (ix1 n)) h

/-! ### A column of the events, read at an event -/

/-- Column c of the events, sliced out and flattened, holds at event n the entry (n, c). -/
theorem col_read (E : FVec Ideal S16777216x4 .f32) (c : Nat) (hc4 : c < 4)
    (hs : S16777216x4.Slices ![0, c] S16777216x1) (hc : S16777216x1.ShapeCasts S16777216) (n : Fin 16777216) :
    shapeCast S16777216 (extractStridedSlice S16777216x1 ![0, c] E hs) hc (ix1 n) = E (ix2 n ⟨c, hc4⟩) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply _ E hs (ix2 n (0 : Fin 1)) (ix2 n ⟨c, hc4⟩) fun a => ?_
    match a with
    | ⟨0, _⟩ => show n.val = 0 + n.val; omega
    | ⟨1, _⟩ => show c = c + 0; omega

/-! ### The predicate decoded -/

variable [Cert.Pre_finite_inputs.Facts]

instance : Subsingleton S_.Idx := ⟨fun a b => funext fun d => d.elim0⟩

/-- Events the printed precondition accepts satisfy the contract. -/
theorem contract_of_pre (E : FVec Ideal S16777216x4 .f32)
    (h : Cert.Pre_finite_inputs.fn (F := Ideal) E = fun _ => 1#1) : Hist.Contract E := by
  have h0 : Cert.Pre_finite_inputs.fn (F := Ideal) E ix0 = 1#1 := congrFun h ix0
  dsimp only [Cert.Pre_finite_inputs.fn, Cert.Pre_finite_inputs.fn_part1] at h0
  obtain ⟨h123, hp⟩ := IntOp.andi_eq_one.1 h0
  obtain ⟨h12, hy⟩ := IntOp.andi_eq_one.1 h123
  obtain ⟨-, hx⟩ := IntOp.andi_eq_one.1 h12
  intro n
  have hxn := Host.reduce_andi_all _ _ _ _ ix0 hx (ix1 n)
  have hyn := Host.reduce_andi_all _ _ _ _ ix0 hy (ix1 n)
  have hpn := Host.reduce_andi_all _ _ _ _ ix0 hp (ix1 n)
  obtain ⟨xi, hx0, hx1, hxe⟩ := coord_of_col _ _ 640 ofBits_640 _ _ n hxn
  obtain ⟨yi, hy0, hy1, hye⟩ := coord_of_col _ _ 480 ofBits_480 _ _ n hyn
  have hpe := sign_of_col _ _ _ n hpn
  rw [col_read E 0 (by omega)] at hxe
  rw [col_read E 1 (by omega)] at hye
  rw [col_read E 3 (by omega)] at hpe
  exact ⟨xi, yi, hx0, hx1, hy0, hy1, hxe, hye, hpe⟩

end Cert.PreDecode

end
-- ==== Proof.LibDot.lean ====
/-
  A product of two matrices at one entry is a sum over the one contracted axis.  Two such sums — over different
  dimension records, of different operands — are equal as soon as their factors agree position by position
  along that axis.  This is what identifies a row block's product with the matching rows of the whole product:
  the block's row r of the left operand IS row (block offset + r) of the whole left operand, the right operand
  is the same matrix, and the contracted positions correspond one to one.
-/
import Idealize.ShloMosaic.Lib.ValueIdx
import Idealize.ShloMosaic.PureOps.Ideal.Laws

noncomputable section

namespace Cert.LibDot

open Idealize.ShloMosaic Idealize.ShloMosaic.ValueIdx

/-- The sum over a one-axis contraction index, re-indexed by the axis's positions `0 … n-1`. -/
theorem sum_contr {sl sr so : Shape} (d : DotDims sl sr so) (n : Nat) (hr : d.contr.rank = 1)
    (hs : d.contr.size ⟨0, by omega⟩ = n) (f : d.contr.Idx → EReal) :
    ∑ k : d.contr.Idx, f k = ∑ k : Fin n, f ((contrEquiv1 d n hr hs).symm k) :=
  (Equiv.sum_comp (contrEquiv1 d n hr hs).symm f).symm

/-- Two one-axis contractions of the same length whose left factors agree at every position, and whose right
    factors do, are the same sum. -/
theorem dot_sum_eq {sl sr so sl' sr' so' : Shape} (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (A : sl.Idx → EReal) (B : sr.Idx → EReal) (A' : sl'.Idx → EReal) (B' : sr'.Idx → EReal) (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    ∑ k : d.contr.Idx, A (d.lhsIdx j k) * B (d.rhsIdx j k) = ∑ k : d'.contr.Idx, A' (d'.lhsIdx j' k) * B' (d'.rhsIdx j' k) := by
  rw [sum_contr d n hr hs, sum_contr d' n hr' hs']
  exact Finset.sum_congr rfl fun k _ => by rw [hA k, hB k]

/-- A block product into the zero accumulator against the host's whole product, entry against entry: equal when
    the factors agree along the contracted axis. -/
theorem matmul_eq_dotGeneral {sl sr so sl' sr' so' : Shape} {φ₁ φ₂ φ₁' φ₂' : FTy}
    (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (prec prec' : Option ContractPrecision) (sched : HostSchedule)
    (A : FVec Ideal sl φ₁) (B : FVec Ideal sr φ₂) (A' : FVec Ideal sl' φ₁') (B' : FVec Ideal sr' φ₂') (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    FloatOps.matmul d prec A B (constant so .f32 0x00000000#32) j = FloatOps.dotGeneral d' prec' sched A' B' j' := by
  rw [Ideal.matmul_constant_zero_apply, Ideal.dotGeneral_apply]
  exact dot_sum_eq d d' n hr hs hr' hs' A B A' B' j j' hA hB

end Cert.LibDot

end
-- ==== Proof.KernelBlock.lean ====
/-
  One grid point's product of the two one-hot matrices, entry by entry.  For the events of a [4, 4096] block
  (rows x, y, t, p) the body forms, per event b, a row word 480·[p > 0] + trunc y and a lane word trunc x in
  32-bit integer arithmetic, the [960, 4096] matrix whose (r, b) entry is 1 when r is b's row word and 0 otherwise,
  the [4096, 640] matrix whose (b, l) entry is 1 when l is b's lane word, and adds their product to the accumulator:
  entry (r, l) grows by the number of the block's events whose words are (r, l).
-/
import proofs.«152134_j55078660604232_2_alg».proof.Proof.Gen.KernelIdeal.Skeleton
import proofs.«152134_j55078660604232_2_alg».proof.Proof.LibDot
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.KB

open Cert.KernelIdeal Cert.KernelIdeal.Gen

/-- The row word of event b of a block: 480·[p > 0] + trunc y, in 32-bit arithmetic. -/
def rowW (x0 : Vec Ideal S4x4096 .f32) (b : Fin 4096) : BitVec 32 :=
  (if (0 : EReal) < x0 (ix2 3 b) then 1#32 else 0#32) * 480#32 + Ideal.fptosi 32 (x0 (ix2 1 b))

/-- The lane word of event b of a block: trunc x. -/
def laneW (x0 : Vec Ideal S4x4096 .f32) (b : Fin 4096) : BitVec 32 := Ideal.fptosi 32 (x0 (ix2 0 b))

/-- A one-hot entry: 1 when the two words are equal, 0 otherwise. -/
def hot (u v : BitVec 32) : EReal := if u = v then 1 else 0

/-! ### The product's operand indices -/

local notation "DD" => dot_S960x4096_S4096x640_S960x640_1_0_0_1_n_n

theorem lhs_0 (j : S960x640.Idx) (k : (DD).contr.Idx) : ((DD).lhsIdx j k 0 : ℕ) = j 0 := by
  simp [DotDims.lhsIdx, dot_S960x4096_S4096x640_S960x640_1_0_0_1_n_n]; rfl
theorem lhs_1 (j : S960x640.Idx) (k : (DD).contr.Idx) : ((DD).lhsIdx j k 1 : ℕ) = k ⟨0, by decide⟩ := by
  simp [DotDims.lhsIdx, dot_S960x4096_S4096x640_S960x640_1_0_0_1_n_n]; rfl
theorem rhs_0 (j : S960x640.Idx) (k : (DD).contr.Idx) : ((DD).rhsIdx j k 0 : ℕ) = k ⟨0, by decide⟩ := by
  simp [DotDims.rhsIdx, dot_S960x4096_S4096x640_S960x640_1_0_0_1_n_n]; rfl
theorem rhs_1 (j : S960x640.Idx) (k : (DD).contr.Idx) : ((DD).rhsIdx j k 1 : ℕ) = j 1 := by
  simp [DotDims.rhsIdx, dot_S960x4096_S4096x640_S960x640_1_0_0_1_n_n]; rfl

/-- Entry (r, l) of the product reads the left matrix at (r, b) along the contracted axis. -/
theorem lhsIdx_eq (r : Fin 960) (l : Fin 640) (b : Fin 4096) :
    (DD).lhsIdx (ix2 r l) ((contrEquiv1 (DD) 4096 rfl rfl).symm b) = ix2 r b := by
  funext a
  match a with
  | ⟨0, _⟩ => exact Fin.ext (lhs_0 _ _)
  | ⟨1, _⟩ => exact Fin.ext ((lhs_1 _ _).trans (contrEquiv1_symm_val (DD) 4096 rfl rfl b))

/-- Entry (r, l) of the product reads the right matrix at (b, l) along the contracted axis. -/
theorem rhsIdx_eq (r : Fin 960) (l : Fin 640) (b : Fin 4096) :
    (DD).rhsIdx (ix2 r l) ((contrEquiv1 (DD) 4096 rfl rfl).symm b) = ix2 b l := by
  funext a
  match a with
  | ⟨0, _⟩ => exact Fin.ext ((rhs_0 _ _).trans (contrEquiv1_symm_val (DD) 4096 rfl rfl b))
  | ⟨1, _⟩ => exact Fin.ext (rhs_1 _ _)

/-! ### A one-hot entry as the body computes it -/

/-- The comparison bit of two words, widened to 32 bits and converted, is the one-hot entry. -/
theorem onehot_word (u v : BitVec 32) :
    ((((BitVec.ofBool (u == v)).setWidth 32).toInt : ℝ) : EReal) = hot u v := by
  unfold hot
  by_cases h : u = v
  · subst h
    rw [if_pos rfl, beq_self_eq_true]
    have : ((BitVec.ofBool true).setWidth 32).toInt = 1 := by decide
    rw [this]; simp
  · rw [if_neg h, beq_eq_false_iff_ne.2 h]
    have : ((BitVec.ofBool false).setWidth 32).toInt = 0 := by decide
    rw [this]; simp

/-- The left matrix at (r, b): row number r against event b's word. -/
theorem lhs_entry (W : IVec S4096 32) (r : Fin 960) (b : Fin 4096) :
    truncf (F := Ideal) .bf16 (sitofp .f32 (extui 32 (cmpi .eq
        (broadcastTo S960x4096 (iota .tc S960x1 32 [0] iota_S960x1_d0_w32) broadcasts_S960x1_S960x4096)
        (broadcastTo S960x4096 (shapeCast S1x4096 W shapeCasts_S4096_S1x4096) broadcasts_S1x4096_S960x4096)) natLt_1_32))
        bitsLt_bf16_f32 (ix2 r b)
      = hot (BitVec.ofNat 32 r.val) (W (ix1 b)) := by
  have hA : broadcastTo S960x4096 (iota .tc S960x1 32 [0] iota_S960x1_d0_w32) broadcasts_S960x1_S960x4096 (ix2 r b)
      = BitVec.ofNat 32 r.val := by
    refine (broadcastTo_apply _ _ (ix2 r b) (ix2 r (0 : Fin 1)) fun a => ?_).trans ?_
    · match a with
      | ⟨0, _⟩ => rfl
      | ⟨1, _⟩ => rfl
    · exact iota_single_apply .tc S960x1 32 0 iota_S960x1_d0_w32 (ix2 r 0)
  have hB : broadcastTo S960x4096 (shapeCast S1x4096 W shapeCasts_S4096_S1x4096) broadcasts_S1x4096_S960x4096 (ix2 r b)
      = W (ix1 b) := by
    refine (broadcastTo_apply _ _ (ix2 r b) (ix2 (0 : Fin 1) b) fun a => ?_).trans ?_
    · match a with
      | ⟨0, _⟩ => rfl
      | ⟨1, _⟩ => rfl
    · refine shapeCast_apply W _ (ix2 (0 : Fin 1) b) (ix1 b) ?_
      rw [Shape.rowMajor_val_two, Shape.rowMajor_val_one]
      show b.val = 0 * 4096 + b.val
      omega
  rw [← hA, ← hB]
  exact onehot_word _ _

/-- The right matrix at (b, l): lane number l against event b's word. -/
theorem rhs_entry (W : IVec S4096 32) (b : Fin 4096) (l : Fin 640) :
    truncf (F := Ideal) .bf16 (sitofp .f32 (extui 32 (cmpi .eq
        (broadcastTo S4096x640 (iota .tc S1x640 32 [1] iota_S1x640_d1_w32) broadcasts_S1x640_S4096x640)
        (broadcastTo S4096x640 (shapeCast S4096x1 W shapeCasts_S4096_S4096x1) broadcasts_S4096x1_S4096x640)) natLt_1_32))
        bitsLt_bf16_f32 (ix2 b l)
      = hot (BitVec.ofNat 32 l.val) (W (ix1 b)) := by
  have hA : broadcastTo S4096x640 (iota .tc S1x640 32 [1] iota_S1x640_d1_w32) broadcasts_S1x640_S4096x640 (ix2 b l)
      = BitVec.ofNat 32 l.val := by
    refine (broadcastTo_apply _ _ (ix2 b l) (ix2 (0 : Fin 1) l) fun a => ?_).trans ?_
    · match a with
      | ⟨0, _⟩ => rfl
      | ⟨1, _⟩ => rfl
    · exact iota_single_apply .tc S1x640 32 1 iota_S1x640_d1_w32 (ix2 0 l)
  have hB : broadcastTo S4096x640 (shapeCast S4096x1 W shapeCasts_S4096_S4096x1) broadcasts_S4096x1_S4096x640 (ix2 b l)
      = W (ix1 b) := by
    refine (broadcastTo_apply _ _ (ix2 b l) (ix2 b (0 : Fin 1)) fun a => ?_).trans ?_
    · match a with
      | ⟨0, _⟩ => rfl
      | ⟨1, _⟩ => rfl
    · refine shapeCast_apply W _ (ix2 b (0 : Fin 1)) (ix1 b) ?_
      rw [Shape.rowMajor_val_two, Shape.rowMajor_val_one]
      show b.val = b.val * 1 + 0
      omega
  rw [← hA, ← hB]
  exact onehot_word _ _

/-! ### The words of an event -/

/-- Row c of the block, sliced out and flattened, holds at b the entry (c, b). -/
theorem row_read (x0 : Vec Ideal S4x4096 .f32) (c : Nat) (hc4 : c < 4) (hs : S4x4096.Slices ![c, 0] S1x4096) (b : Fin 4096) :
    shapeCast S4096 (extractStridedSlice S1x4096 ![c, 0] x0 hs) shapeCasts_S1x4096_S4096 (ix1 b) = x0 (ix2 ⟨c, hc4⟩ b) := by
  refine (shapeCast_apply _ _ (ix1 b) (ix2 (0 : Fin 1) b) ?_).trans ?_
  · rw [Shape.rowMajor_val_two, Shape.rowMajor_val_one]
    show 0 * 4096 + b.val = b.val
    omega
  · refine extractStridedSlice_apply _ x0 hs (ix2 (0 : Fin 1) b) (ix2 ⟨c, hc4⟩ b) fun a => ?_
    match a with
    | ⟨0, _⟩ => show c = c + 0; omega
    | ⟨1, _⟩ => show b.val = 0 + b.val; omega

private theorem ofBool_eq_one {c : Bool} : BitVec.ofBool c = 1#1 ↔ c = true := by cases c <;> decide

/-- The row word as the body's integer arithmetic forms it from the p and y rows. -/
theorem rowWord_apply (P Y : FVec Ideal S4096 .f32) (b : Fin 4096) :
    addi (muli (select (cmpf .ogt P (broadcast S4096 (FloatOps.ofBits (F := Ideal) .f32 0#32))) (broadcast S4096 1#32)
        (broadcast S4096 0#32)) (broadcast S4096 480#32)) (fptosi 32 Y) (ix1 b)
      = (if (0 : EReal) < P (ix1 b) then 1#32 else 0#32) * 480#32 + Ideal.fptosi 32 (Y (ix1 b)) := by
  have hc : (Ideal.cmp .ogt (P (ix1 b)) (Ideal.ofBits .f32 0#32) = 1#1) ↔ (0 : EReal) < P (ix1 b) := by
    rw [Ideal.ofBits_zero_f32]
    show BitVec.ofBool (decide ((0 : EReal) < P (ix1 b))) = 1#1 ↔ _
    rw [ofBool_eq_one, decide_eq_true_iff]
  show (if Ideal.cmp .ogt (P (ix1 b)) (Ideal.ofBits .f32 0#32) = 1#1 then 1#32 else 0#32) * 480#32
      + Ideal.fptosi 32 (Y (ix1 b)) = _
  rw [if_congr hc rfl rfl]

/-! ### The three payloads -/

/-- The accumulating payload at entry (r, l): the accumulator's entry plus the sum over the block's events of the
    product of the two one-hot entries. -/
theorem pay3_apply (x0 : Vec Ideal S4x4096 .f32) (acc : Vec Ideal S960x640 .f32) (r : Fin 960) (l : Fin 640) :
    k0_pay3 (F := Ideal) x0 acc (ix2 r l)
      = acc (ix2 r l) + ∑ b : Fin 4096, hot (BitVec.ofNat 32 r.val) (rowW x0 b) * hot (BitVec.ofNat 32 l.val) (laneW x0 b) := by
  unfold k0_pay3
  dsimp only
  rw [shapeCast_self, addf_apply, shapeCast_self]
  refine congrArg (acc (ix2 r l) + ·) ?_
  refine (Ideal.matmul_constant_zero_apply (DD) none _ _ (ix2 r l)).trans ?_
  rw [Cert.LibDot.sum_contr (DD) 4096 rfl rfl]
  refine Finset.sum_congr rfl fun b _ => ?_
  rw [lhsIdx_eq r l b, rhsIdx_eq r l b]
  refine congrArg₂ (· * ·) ((lhs_entry _ r b).trans (congrArg (hot _) ?_)) ((rhs_entry _ b l).trans (congrArg (hot _) ?_))
  · refine (rowWord_apply _ _ b).trans ?_
    rw [row_read x0 3 (by omega), row_read x0 1 (by omega)]
    rfl
  · show Ideal.fptosi 32 _ = _
    rw [row_read x0 0 (by omega)]
    rfl

/-- The zero block the reset stores is zero at every entry. -/
theorem pay2_apply (j : S960x640.Idx) : k0_pay2 (F := Ideal) j = 0 := by
  unfold k0_pay2
  rw [shapeCast_self]
  exact Ideal.ofBits_zero_f32

/-- The copy into the output block only adds a leading unit axis. -/
theorem pay1_apply (v : Vec Ideal S960x640 .f32) (r : Fin 960) (l : Fin 640) :
    k0_pay1 (F := Ideal) v (ix3 (0 : Fin 1) r l) = v (ix2 r l) := by
  unfold k0_pay1
  refine shapeCast_apply v _ (ix3 (0 : Fin 1) r l) (ix2 r l) ?_
  rw [Shape.rowMajor_val_two, Shape.rowMajor_val_three]
  show r.val * 640 + l.val = (0 * 960 + r.val) * 640 + l.val
  omega

/-! ### The product of the two one-hot entries inside the contract -/

/-- A product of two one-hot entries is the indicator of both word equalities. -/
theorem hot_mul_of_iff (u v u' v' : BitVec 32) (c : Prop) {dc : Decidable c} (h : (u = v ∧ u' = v') ↔ c) :
    hot u v * hot u' v' = @ite EReal c dc 1 0 := by
  unfold hot
  by_cases hc : c
  · obtain ⟨h1, h2⟩ := h.2 hc
    rw [if_pos h1, if_pos h2, if_pos hc, one_mul]
  · rw [if_neg hc]
    by_cases h1 : u = v
    · have h2 : ¬ u' = v' := fun h2 => hc (h.1 ⟨h1, h2⟩)
      rw [if_neg h2, mul_zero]
    · rw [if_neg h1, zero_mul]

/-- Truncation to a 32-bit integer of a nonnegative integer below 2^31 is that integer's word. -/
theorem fptosi_int (z : ℤ) (h0 : 0 ≤ z) (h1 : z < 2147483648) : Ideal.fptosi 32 ((z : ℝ) : EReal) = BitVec.ofInt 32 z := by
  unfold Ideal.fptosi
  rw [Ideal.toIntClamped_coe]
  have hz : (0 : ℝ) ≤ (z : ℝ) := by exact_mod_cast h0
  rw [if_pos hz, Int.floor_intCast]
  have e : ((2 ^ (32 - 1) : ℕ) : ℤ) = 2147483648 := by norm_num
  rw [e]
  congr 1
  omega

/-- Words of a natural and of a nonnegative integer, both below 2^32, are equal exactly when the numbers are. -/
theorem ofNat_eq_ofInt_iff (n : ℕ) (z : ℤ) (hn : n < 4294967296) (hz0 : 0 ≤ z) (hz1 : z < 4294967296) :
    BitVec.ofNat 32 n = BitVec.ofInt 32 z ↔ (n : ℤ) = z := by
  obtain ⟨m, rfl⟩ := Int.eq_ofNat_of_zero_le hz0
  rw [BitVec.ofInt_natCast]
  constructor
  · intro h
    have := congrArg BitVec.toNat h
    simp only [BitVec.toNat_ofNat] at this
    omega
  · intro h
    have : n = m := by omega
    rw [this]

theorem laneW_eq (x0 : Vec Ideal S4x4096 .f32) (b : Fin 4096) (xi : ℤ) (hx0 : 0 ≤ xi) (hx1 : xi < 640)
    (ex : x0 (ix2 0 b) = ((xi : ℝ) : EReal)) : laneW x0 b = BitVec.ofInt 32 xi := by
  unfold laneW
  rw [ex]
  exact fptosi_int xi hx0 (by omega)

theorem rowW_pos (x0 : Vec Ideal S4x4096 .f32) (b : Fin 4096) (yi : ℤ) (hy0 : 0 ≤ yi) (hy1 : yi < 480)
    (ey : x0 (ix2 1 b) = ((yi : ℝ) : EReal)) (ep : x0 (ix2 3 b) = ((1 : ℝ) : EReal)) :
    rowW x0 b = BitVec.ofInt 32 (480 + yi) := by
  unfold rowW
  rw [ep, ey, fptosi_int yi hy0 (by omega), if_pos (EReal.coe_pos.2 one_pos), BitVec.ofInt_add]
  rfl

theorem rowW_neg (x0 : Vec Ideal S4x4096 .f32) (b : Fin 4096) (yi : ℤ) (hy0 : 0 ≤ yi) (hy1 : yi < 480)
    (ey : x0 (ix2 1 b) = ((yi : ℝ) : EReal)) (ep : x0 (ix2 3 b) = ((-1 : ℝ) : EReal)) :
    rowW x0 b = BitVec.ofInt 32 yi := by
  unfold rowW
  have hn : ¬ (0 : EReal) < ((-1 : ℝ) : EReal) := by rw [EReal.coe_pos]; norm_num
  rw [ep, ey, fptosi_int yi hy0 (by omega), if_neg hn]
  simp

/-- For an event inside the contract (x = xi, y = yi integers in range, p = ±1) the product of its two one-hot
    entries at row 480 q + y and lane x is 1 exactly when the event is (x, y, ±1 by q), and 0 otherwise. -/
theorem hot_mul_hot (x0 : Vec Ideal S4x4096 .f32) (b : Fin 4096) (xi yi : ℤ)
    (hx0 : 0 ≤ xi) (hx1 : xi < 640) (hy0 : 0 ≤ yi) (hy1 : yi < 480)
    (ex : x0 (ix2 0 b) = ((xi : ℝ) : EReal)) (ey : x0 (ix2 1 b) = ((yi : ℝ) : EReal))
    (ep : x0 (ix2 3 b) = ((1 : ℝ) : EReal) ∨ x0 (ix2 3 b) = ((-1 : ℝ) : EReal))
    (q : Fin 2) (y : Fin 480) (x : Fin 640) :
    hot (BitVec.ofNat 32 (480 * q.val + y.val)) (rowW x0 b) * hot (BitVec.ofNat 32 x.val) (laneW x0 b)
      = if (x0 (ix2 0 b) = ((x.val : ℝ) : EReal) ∧ x0 (ix2 1 b) = ((y.val : ℝ) : EReal)
            ∧ x0 (ix2 3 b) = (((if q.val = 1 then 1 else -1 : ℝ)) : EReal)) then 1 else 0 := by
  refine hot_mul_of_iff _ _ _ _ _ ?_
  have hq : q.val = 0 ∨ q.val = 1 := by omega
  have hyv := y.isLt
  have hxv := x.isLt
  have hX : (x0 (ix2 0 b) = ((x.val : ℝ) : EReal)) ↔ xi = (x.val : ℤ) := by
    rw [ex, EReal.coe_eq_coe_iff]
    constructor <;> intro h <;> exact_mod_cast h
  have hY : (x0 (ix2 1 b) = ((y.val : ℝ) : EReal)) ↔ yi = (y.val : ℤ) := by
    rw [ey, EReal.coe_eq_coe_iff]
    constructor <;> intro h <;> exact_mod_cast h
  have hL : BitVec.ofNat 32 x.val = laneW x0 b ↔ (x.val : ℤ) = xi := by
    rw [laneW_eq x0 b xi hx0 hx1 ex]
    exact ofNat_eq_ofInt_iff _ _ (by omega) hx0 (by omega)
  rw [hX, hY, hL]
  rcases ep with ep | ep
  · have hP : (x0 (ix2 3 b) = (((if q.val = 1 then 1 else -1 : ℝ)) : EReal)) ↔ q.val = 1 := by
      rw [ep, EReal.coe_eq_coe_iff]
      rcases hq with h | h <;> rw [h] <;> norm_num
    rw [hP, rowW_pos x0 b yi hy0 hy1 ey ep, ofNat_eq_ofInt_iff _ _ (by omega) (by omega) (by omega)]
    push_cast
    omega
  · have hP : (x0 (ix2 3 b) = (((if q.val = 1 then 1 else -1 : ℝ)) : EReal)) ↔ q.val = 0 := by
      rw [ep, EReal.coe_eq_coe_iff]
      rcases hq with h | h <;> rw [h] <;> norm_num
    rw [hP, rowW_neg x0 b yi hy0 hy1 ey ep, ofNat_eq_ofInt_iff _ _ (by omega) (by omega) (by omega)]
    push_cast
    omega

end Cert.KernelIdeal.KB

end
-- ==== Proof.KernelRead.lean ====
/-
  An event block as the kernel's window reads it.  The host transposes the [16777216, 4] events array to [4, 16777216]
  before the region; window 0's block at grid point t is columns 4096 t .. 4096 t + 4095 of the transposed array,
  all four rows.  So entry (ch, b) of the block at point t is channel ch of event 4096 t + b.
-/
import proofs.«152134_j55078660604232_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KR

open Cert.KernelIdeal Cert.KernelIdeal.Gen

variable {F : FTy → Type} [FloatOps F]
variable (m : (ℓ : Loc nD τ sig) → Buf (Elt F) ℓ)

/-- The region finds the transposed events array in `main_v0`. -/
theorem V_main_v0 (c : Dev nD) :
    (V m c main_v0 : S4x16777216.Idx → Elt F .f32)
      = transpose S4x16777216 [1, 0] (m ((c : Thread nD τ).loc main_arg0)) transposes_S16777216x4_S4x16777216_1_0 := by
  dsimp only [V, V0]
  simp only [hostOps0, List.flatten_cons, List.flatten_nil, List.append_nil]
  after_results

/-- Window 0's block index at point `t`: all rows, column block `t`. -/
theorem idx_in : ∀ t : Fin cfg0.N, win0_0.index t (0 : Fin 2) = 0 ∧ win0_0.index t (1 : Fin 2) = t.val :=
  (by decide +kernel : ∀ t : Fin grid0.N, _)

/-- Event `4096 t + b` is an event. -/
theorem ev_lt (t : Fin cfg0.N) (b : Fin 4096) : t.val * 4096 + b.val < 16777216 := by
  have := lt_of_lt_of_eq t.isLt (show cfg0.N = 4096 from N_0); omega

/-- A number below 4096 as a grid point. -/
def pt (t : Fin 4096) : Fin cfg0.N := ⟨t.val, lt_of_lt_of_eq t.isLt (show cfg0.N = 4096 from N_0).symm⟩

/-- Entry `(ch, b)` of the block at point `t` is channel `ch` of event `4096 t + b`. -/
theorem iblk_apply (c : Dev nD) (t : Fin cfg0.N) (ch : Fin 4) (b : Fin 4096) :
    (iblk m c 0 t : Vec F S4x4096 .f32) (ix2 ch b)
      = m ((c : Thread nD τ).loc main_arg0) (ix2 ⟨t.val * 4096 + b.val, ev_lt t b⟩ ch) := by
  obtain ⟨e0, e1⟩ := idx_in t
  unfold iblk
  rw [View.read_apply]
  show V m c main_v0 _ = _
  rw [V_main_v0]
  refine transpose_apply [1, 0] _ transposes_S16777216x4_S4x16777216_1_0 _ (ix2 ⟨t.val * 4096 + b.val, ev_lt t b⟩ ch) (fun a => ?_)
  match a with
  | ⟨0, _⟩ => show ch.val = win0_0.index t (0 : Fin 2) * 4 + 1 * ch.val
              rw [e0]; omega
  | ⟨1, _⟩ => show t.val * 4096 + b.val = win0_0.index t (1 : Fin 2) * 4096 + 1 * b.val
              rw [e1]; omega

end Cert.KernelIdeal.KR

end
-- ==== Proof.KernelCount.lean ====
/-
  The blocks' one-hot products, summed over all blocks, count the events of a cell.  Event n = 4096 t + b is entry b
  of block t; inside the contract the product of its two one-hot entries at row 480 q + y and lane x is 1 exactly
  when the event lands in cell (q, y, x), so the double sum over blocks and entries is the cell's count.
-/
import proofs.«152134_j55078660604232_2_alg».proof.Proof.KernelBlock
import proofs.«152134_j55078660604232_2_alg».proof.Proof.KernelRead
import proofs.«152134_j55078660604232_2_alg».proof.Proof.Hist

set_option maxRecDepth 16384

noncomputable section

open Idealize.ShloMosaic Idealize.ShloMosaic.TcCoe Idealize.SL.Sem
open Idealize.ShloMosaic.ValueIdx
open scoped BigOperators

namespace Cert.KernelIdeal.KC

open Cert.KernelIdeal Cert.KernelIdeal.Gen Cert.KernelIdeal.KB Cert.KernelIdeal.KR

variable (m : (ℓ : Loc nD τ sig) → Buf (Elt Ideal) ℓ)

/-- One event's term: the product of the two one-hot entries of entry b of block t is the indicator that event
    4096 t + b lands in the cell. -/
theorem event_term (c : Dev nD) (hC : Hist.Contract (m ((c : Thread nD τ).loc main_arg0)))
    (q : Fin 2) (y : Fin 480) (x : Fin 640) (t b : Fin 4096) (h : t.val * 4096 + b.val < 16777216)
    {dc : Decidable (Hist.Hits (m ((c : Thread nD τ).loc main_arg0)) ⟨t.val * 4096 + b.val, h⟩ q y x)} :
    hot (BitVec.ofNat 32 (480 * q.val + y.val)) (rowW (iblk m c 0 (pt t)) b)
        * hot (BitVec.ofNat 32 x.val) (laneW (iblk m c 0 (pt t)) b)
      = @ite EReal (Hist.Hits (m ((c : Thread nD τ).loc main_arg0)) ⟨t.val * 4096 + b.val, h⟩ q y x) dc 1 0 := by
  obtain ⟨xi, yi, hx0, hx1, hy0, hy1, ex, ey, ep⟩ := hC ⟨t.val * 4096 + b.val, h⟩
  have e0 : (iblk m c 0 (pt t) : Vec Ideal S4x4096 .f32) (ix2 0 b)
      = m ((c : Thread nD τ).loc main_arg0) (ix2 ⟨t.val * 4096 + b.val, h⟩ 0) := iblk_apply m c (pt t) 0 b
  have e1 : (iblk m c 0 (pt t) : Vec Ideal S4x4096 .f32) (ix2 1 b)
      = m ((c : Thread nD τ).loc main_arg0) (ix2 ⟨t.val * 4096 + b.val, h⟩ 1) := iblk_apply m c (pt t) 1 b
  have e3 : (iblk m c 0 (pt t) : Vec Ideal S4x4096 .f32) (ix2 3 b)
      = m ((c : Thread nD τ).loc main_arg0) (ix2 ⟨t.val * 4096 + b.val, h⟩ 3) := iblk_apply m c (pt t) 3 b
  refine (hot_mul_hot (iblk m c 0 (pt t)) b xi yi hx0 hx1 hy0 hy1 (e0.trans ex) (e1.trans ey)
    (by rw [e3]; exact ep) q y x).trans ?_
  refine if_congr ?_ rfl rfl
  rw [e0, e1, e3]
  exact Iff.rfl

/-- Summed over all blocks and their entries, the one-hot products at row 480 q + y and lane x count the events of
    cell (q, y, x). -/
theorem blocks_eq_count (c : Dev nD) (hC : Hist.Contract (m ((c : Thread nD τ).loc main_arg0)))
    (q : Fin 2) (y : Fin 480) (x : Fin 640) :
    ∑ t : Fin 4096, ∑ b : Fin 4096,
        hot (BitVec.ofNat 32 (480 * q.val + y.val)) (rowW (iblk m c 0 (pt t)) b)
          * hot (BitVec.ofNat 32 x.val) (laneW (iblk m c 0 (pt t)) b)
      = Hist.count (m ((c : Thread nD τ).loc main_arg0)) q y x := by
  unfold Hist.count
  refine Eq.trans ?_ (Hist.sum_blocks _).symm
  refine Finset.sum_congr rfl fun t _ => Finset.sum_congr rfl fun b _ => ?_
  exact event_term m c hC q y x t b _

end Cert.KernelIdeal.KC

end
-- ==== Proof.KernelValue.lean ====
/-
  The kernel program's result inside the contract.  Unrolling the accumulator's fold, slab g of the output array at
  entry (r, l) is the sum over the 2048 points of run g of the number of the point's events whose row word is r and
  lane word is l; the host adds the two slabs, so the sum runs over all 4096 points, that is over all events; inside
  the contract an event's words are (480 q + y, x) exactly when it lands in cell (q, y, x), so the sum at row
  480 q + y, lane x is the cell's event count, and the host's comparison with zero makes it the binarised histogram.
-/
import proofs.«152134_j55078660604232_2_alg».proof.Proof.KernelTail
import proofs.«152134_j55078660604232_2_alg».proof.Proof.Hist
import proofs.«152134_j55078660604232_2_alg».proof.Proof.PreDecode
import proofs.«152134_j55078660604232_2_alg».proof.Proof.KernelBlock
import proofs.«152134_j55078660604232_2_alg».proof.Proof.KernelRead
import proofs.«152134_j55078660604232_2_alg».proof.Proof.KernelCount

set_option maxRecDepth 16384

noncomputable section

open Idealize.ShloMosaic Idealize.ShloMosaic.TcCoe Idealize.SL.Sem
open Idealize.ShloMosaic.ValueIdx

namespace Cert.KernelIdeal.KW

open Cert.KernelIdeal Cert.KernelIdeal.Gen Cert.KernelIdeal.KV

theorem ofBits_one : Ideal.ofBits .f32 0x3F800000#32 = (1 : EReal) := Cert.PreDecode.ofBits_one.trans (by norm_cast)

/-- One [960, 640] slab of the output array, read at an entry. -/
theorem slab_apply (o : (⟨S2x960x640, .f32⟩ : BufTy).Contents (Elt Ideal)) (g : Fin 2) (r : Fin 960) (l : Fin 640)
    (off : Fin 3 → Nat) (hoff : off = ![g.val, 0, 0]) (h : S2x960x640.Slices off S1x960x640) :
    shapeCast S960x640 (extractStridedSlice S1x960x640 off o h) shapeCasts_S1x960x640_S960x640 (ix2 r l) = o (ix3 g r l) := by
  subst hoff
  refine (shapeCast_apply _ shapeCasts_S1x960x640_S960x640 (ix2 r l) (ix3 (0 : Fin 1) r l) (by
    rw [Shape.rowMajor_val_two, Shape.rowMajor_val_three]
    show (0 * 960 + r.val) * 640 + l.val = r.val * 640 + l.val
    omega)).trans ?_
  exact extractStridedSlice_apply _ o h (ix3 (0 : Fin 1) r l) (ix3 g r l) (fun a => by
    match a with
    | ⟨0, _⟩ => show g.val = g.val + 0; omega
    | ⟨1, _⟩ => show r.val = 0 + r.val; omega
    | ⟨2, _⟩ => show l.val = 0 + l.val; omega)

/-- A scalar literal broadcast to [960, 640], read at an entry. -/
theorem cst_apply (w : BitVec 32) (j : S960x640.Idx) :
    broadcastInDim S960x640 ![] bcast_S_S960x640 (constant (F := Ideal) S_ .f32 w) j = Ideal.ofBits .f32 w :=
  (broadcastInDim_apply _ bcast_S_S960x640 _ j ix0 (fun a => a.elim0)).trans rfl

/-- A select on "greater than zero" is the `if`. -/
theorem select_gt_zero (s u v : EReal) :
    Scalar.select (FloatOps.cmpf (F := Ideal) (φ := .f32) .ogt s (0 : EReal)) u v = if 0 < s then u else v := by
  by_cases h : (0 : EReal) < s
  · rw [if_pos h]
    have e : FloatOps.cmpf (F := Ideal) (φ := .f32) .ogt s (0 : EReal) = 1#1 := by
      show Ideal.cmp .ogt s 0 = 1#1
      simp [Ideal.cmp, h]
    rw [e]; exact select_one _ _
  · rw [if_neg h]
    have e : FloatOps.cmpf (F := Ideal) (φ := .f32) .ogt s (0 : EReal) = 0#1 := by
      show Ideal.cmp .ogt s 0 = 0#1
      simp [Ideal.cmp, h]
    rw [e]; exact select_zero _ _

theorem row_lt (q : Fin 2) (y : Fin 480) : 480 * q.val + y.val < 960 := by omega

/-- The host's last lines at a cell: 1 when the two slabs' entries add up to a positive number, 0 otherwise. -/
theorem tail_apply (o : (⟨S2x960x640, .f32⟩ : BufTy).Contents (Elt Ideal)) (q : Fin 2) (y : Fin 480) (x : Fin 640) :
    tail (F := Ideal) o (ix4 (0 : Fin 1) q y x)
      = if 0 < o (ix3 (0 : Fin 2) ⟨480 * q.val + y.val, row_lt q y⟩ x) + o (ix3 (1 : Fin 2) ⟨480 * q.val + y.val, row_lt q y⟩ x)
        then 1 else 0 := by
  unfold tail
  refine (broadcastInDim_apply _ bcast_S2x480x640_S1x2x480x640_1_2_3 _ (ix4 (0 : Fin 1) q y x) (ix3 q y x)
    (fun a => by match a with | ⟨0, _⟩ => rfl | ⟨1, _⟩ => rfl | ⟨2, _⟩ => rfl)).trans ?_
  refine (shapeCast_apply _ shapeCasts_S960x640_S2x480x640 (ix3 q y x) (ix2 ⟨480 * q.val + y.val, row_lt q y⟩ x) (by
    rw [Shape.rowMajor_val_two, Shape.rowMajor_val_three]
    show (480 * q.val + y.val) * 640 + x.val = (q.val * 480 + y.val) * 640 + x.val
    omega)).trans ?_
  rw [select_apply, cmpf_apply, addf_apply, cst_apply, cst_apply, slab_apply o 0 _ x ![0, 0, 0] rfl, slab_apply o 1 _ x ![1, 0, 0] rfl,
    Cert.PreDecode.ofBits_zero, ofBits_one]
  exact select_gt_zero _ _ _

variable (m : (ℓ : Loc nD τ sig) → Buf (Elt Ideal) ℓ)

open Cert.KernelIdeal.KB Cert.KernelIdeal.KR

/-- What grid point `n` adds to an entry of the accumulator: the number of its block's events whose row and lane
    words are the entry's (nothing past the grid). -/
def addend (c : Dev nD) (n : ℕ) : S960x640.Idx → EReal := fun i =>
  if h : n < cfg0.N then
    ∑ b : Fin 4096, hot (BitVec.ofNat 32 (i 0).val) (rowW (iblk m c 0 ⟨n, h⟩ : Vec Ideal S4x4096 .f32) b)
      * hot (BitVec.ofNat 32 (i 1).val) (laneW (iblk m c 0 ⟨n, h⟩ : Vec Ideal S4x4096 .f32) b)
  else 0

/-- The payload at any entry: the accumulator's entry plus the point's addend. -/
theorem pay3_addend (c : Dev nD) (n : ℕ) (h : n < cfg0.N) (a : Vec Ideal S960x640 .f32) (i : S960x640.Idx) :
    k0_pay3 (F := Ideal) (iblk m c 0 ⟨n, h⟩) a i = a i + addend m c n i := by
  obtain ⟨r, l, rfl⟩ : ∃ (r : Fin 960) (l : Fin 640), i = ix2 r l := ⟨i 0, i 1, eq_ix2 i⟩
  rw [pay3_apply]
  unfold addend
  rw [dif_pos h]

/-- The fold does not depend on how its run and length are written. -/
theorem accAt_congr {α : Type*} {N : ℕ} (a : (n : ℕ) → n < N → α) (g : (n : ℕ) → n < N → α → α) (b b' j j' : ℕ)
    (h : b + j < N) (h' : b' + j' < N) (eb : b = b') (ej : j = j') :
    Pipeline.accAt a g b j h = Pipeline.accAt a g b' j' h' := by
  subst eb; subst ej; rfl

/-- Slab `g` of the output array at an entry: the sum of the addends of the 2048 points of run `g`. -/
theorem outArr_apply (c : Dev nD) (g : Fin 2) (r : Fin 960) (l : Fin 640) :
    outArr m c (ix3 g r l) = ∑ s ∈ Finset.range 2048, addend m c (2048 * g.val + s) (ix2 r l) := by
  have hN : cfg0.N = 4096 := N_0
  have hg2 : g.val < 2 := g.isLt
  have hb : 2048 * g.val + 2047 < cfg0.N := lastpt_lt _ hg2
  have h' : 2048 * ((2048 * g.val + 2047) / 2048) + (2048 * g.val + 2047) % 2048 < cfg0.N := by omega
  show acc m c (2048 * g.val + 2047) hb (ix2 r l) = _
  rw [acc_eq_fold m c _ hb h', accAt_congr _ _ _ (2048 * g.val) _ 2047 h' hb (by omega) (by omega)]
  refine (Pipeline.accAt_add_apply _ _ (k0_pay2 (F := Ideal)) (addend m c) (2048 * g.val) 2047
    (fun h i => pay3_addend m c _ h _ i) (fun n h a i _ _ => pay3_addend m c n h a i) 2047 (le_refl _) hb (ix2 r l)).trans ?_
  rw [pay2_apply, zero_add]

/-- The two slabs' entries at row 480 q + y, lane x add up to the sum, over all 4096 grid points and the 4096 events of
    each point's block, of the product of the event's two one-hot entries. -/
theorem cell_sum (c : Dev nD) (q : Fin 2) (y : Fin 480) (x : Fin 640)
    (o : (⟨S2x960x640, .f32⟩ : BufTy).Contents (Elt Ideal)) (ho : o = outArr m c) :
    o (ix3 (0 : Fin 2) ⟨480 * q.val + y.val, row_lt q y⟩ x) + o (ix3 (1 : Fin 2) ⟨480 * q.val + y.val, row_lt q y⟩ x)
      = ∑ t : Fin 4096, ∑ b : Fin 4096,
          hot (BitVec.ofNat 32 (480 * q.val + y.val)) (rowW (iblk m c 0 (pt t) : Vec Ideal S4x4096 .f32) b)
            * hot (BitVec.ofNat 32 x.val) (laneW (iblk m c 0 (pt t) : Vec Ideal S4x4096 .f32) b) := by
  subst ho
  rw [outArr_apply, outArr_apply]
  have e0 : ∀ s, 2048 * (0 : Fin 2).val + s = s := fun s => by show 2048 * 0 + s = s; omega
  have e1 : ∀ s, 2048 * (1 : Fin 2).val + s = 2048 + s := fun s => by show 2048 * 1 + s = 2048 + s; omega
  simp only [e0, e1]
  rw [← Finset.sum_range_add (fun n => addend m c n (ix2 ⟨480 * q.val + y.val, row_lt q y⟩ x)) 2048 2048]
  rw [Finset.sum_range (fun n => addend m c n (ix2 ⟨480 * q.val + y.val, row_lt q y⟩ x))]
  show ∑ t : Fin 4096, addend m c t.val (ix2 ⟨480 * q.val + y.val, row_lt q y⟩ x) = _
  refine Finset.sum_congr rfl fun t _ => ?_
  unfold addend
  rw [dif_pos (show t.val < cfg0.N from (pt t).isLt)]
  rfl

/-- Inside the contract the kernel program's result is the binarised histogram. -/
theorem kernel_eq (c : Dev nD) (hC : Hist.Contract (m ((c : Thread nD τ).loc main_arg0))) :
    tail (outArr m c) = Hist.G (m ((c : Thread nD τ).loc main_arg0)) := by
  funext i
  obtain ⟨z, q, y, x, rfl⟩ : ∃ (z : Fin 1) (q : Fin 2) (y : Fin 480) (x : Fin 640), i = ix4 z q y x :=
    ⟨i 0, i 1, i 2, i 3, eq_ix4 i⟩
  obtain rfl : z = 0 := Subsingleton.elim _ _
  rw [tail_apply, cell_sum m c q y x _ rfl, Cert.KernelIdeal.KC.blocks_eq_count m c hC]
  unfold Hist.G
  exact if_congr Iff.rfl rfl rfl

end Cert.KernelIdeal.KW

end
-- ==== Proof.RefConsts.lean ====
/-
  The float literals the reference program spells, as the extended reals their bit patterns denote: 0, 1, 2, the
  sensor width 640 and the number of pixels 307200 = 640 * 480.
-/
import Idealize.ShloMosaic.PureOps.Ideal

noncomputable section

namespace Cert.RefConsts

open Idealize.ShloMosaic

/-- The pattern of `+0.0` denotes 0. -/
theorem ofBits_zero : Ideal.ofBits .f32 0x00000000#32 = 0 := by
  simp [Ideal.ofBits, Ideal.ieee]
/-- The pattern of `1.0` denotes 1. -/
theorem ofBits_one : Ideal.ofBits .f32 0x3F800000#32 = ((1 : ℝ) : EReal) := by
  simp [Ideal.ofBits, Ideal.ieee, -EReal.coe_mul]; norm_num
/-- The pattern of `2.0` denotes 2. -/
theorem ofBits_two : Ideal.ofBits .f32 0x40000000#32 = ((2 : ℝ) : EReal) := by
  simp [Ideal.ofBits, Ideal.ieee, -EReal.coe_mul]; norm_num
/-- The pattern of `640.0` denotes 640. -/
theorem ofBits_640 : Ideal.ofBits .f32 0x44200000#32 = ((640 : ℝ) : EReal) := by
  simp [Ideal.ofBits, Ideal.ieee, -EReal.coe_mul]; norm_num
/-- The pattern of `307200.0` denotes 307200. -/
theorem ofBits_307200 : Ideal.ofBits .f32 0x48960000#32 = ((307200 : ℝ) : EReal) := by
  simp [Ideal.ofBits, Ideal.ieee, -EReal.coe_mul]; norm_num

end Cert.RefConsts

end
-- ==== Proof.RefWord.lean ====
/-
  One event of the reference program, under the events' contract.

  The reference turns event n = (x, y, t, p) into the flat cell index x + 640 y + 307200 (p + 1)/2, computed in
  floats and converted to a 32-bit integer, and scatters a 1 to that cell. Under the contract (x an integer in
  [0, 640), y an integer in [0, 480), p one of -1 and +1) the float arithmetic is exact integer arithmetic, the index
  is a nonnegative integer below 614400, so the conversion keeps it and the scatter's wrap-around of negative indices
  does not act, and it is the flat index of cell (q, y', x') exactly when the event lands in that cell (`lands_iff`).
-/
import proofs.«152134_j55078660604232_2_alg».proof.Proof.RefRead
import proofs.«152134_j55078660604232_2_alg».proof.Proof.Hist
import proofs.«152134_j55078660604232_2_alg».proof.Proof.RefConsts

noncomputable section

open scoped BigOperators

namespace Cert.ReferenceIdeal.RefWord

open Cert.ReferenceIdeal Cert.ReferenceIdeal.ReadP Idealize.ShloMosaic Idealize.ShloMosaic.ValueIdx Cert.RefConsts

variable [Cert.ReferenceIdeal.Facts]

/-! ### The scatter's dimension numbers: one scalar index per update, no window -/

/-- The scatter's dimension numbers. -/
abbrev D : ScatterDims S614400 S16777216x1 S16777216 := scatter_S614400_S16777216x1_S16777216_n_0_0_1

/-- Update `n` starts at its index word, read signed. -/
theorem start_eq (n : Fin 16777216) (idx : IVec S16777216x1 32) (a : Fin S614400.rank) :
    D.start (ix1 n) idx a = (idx (ix2 n 0)).toInt := by
  obtain rfl : a = 0 := Subsingleton.elim _ _
  unfold ScatterDims.start
  rw [dif_pos (show (0 : Fin 1) ∈ D.scatterDimsToOperandDims from List.mem_singleton.mpr rfl)]
  congr 2
  funext b
  refine Fin.ext ?_
  match b with
  | ⟨0, _⟩ => rfl
  | ⟨1, _⟩ => rfl

/-- There is no window: the only operand axis is an inserted one. -/
theorem window_eq (n : Fin 16777216) (a : Fin S614400.rank) : D.window (ix1 n) a = 0 := by
  obtain rfl : a = 0 := Subsingleton.elim _ _
  unfold ScatterDims.window
  rw [dif_neg]
  intro h
  exact absurd h (by decide)

/-- An update lands on cell `c` exactly when its index word, read signed, is `c`. -/
theorem resultIdx_iff (n : Fin 16777216) (idx : IVec S16777216x1 32) (c : Fin 614400) :
    D.resultIdx? (ix1 n) idx = some (ix1 c) ↔ (idx (ix2 n 0)).toInt = (c.val : Int) := by
  have hc := c.isLt
  unfold ScatterDims.resultIdx?
  split
  · rename_i h
    have h0 := h 0
    rw [start_eq, window_eq] at h0
    constructor
    · intro he
      have h1 := congrArg Fin.val (congrFun (Option.some.inj he) 0)
      simp only [start_eq, window_eq] at h1
      change ((idx (ix2 n 0)).toInt + ((0 : Nat) : Int)).toNat = c.val at h1
      omega
    · intro he
      congr 1
      funext a
      obtain rfl : a = 0 := Subsingleton.elim _ _
      refine Fin.ext ?_
      simp only [start_eq, window_eq]
      change ((idx (ix2 n 0)).toInt + ((0 : Nat) : Int)).toNat = c.val
      omega
  · rename_i h
    constructor
    · intro he; cases he
    · intro he
      exfalso
      apply h
      intro a
      rw [start_eq, window_eq]
      obtain rfl : a = 0 := Subsingleton.elim _ _
      change 0 ≤ (idx (ix2 n 0)).toInt + ((0 : Nat) : Int) ∧
        (idx (ix2 n 0)).toInt + ((0 : Nat) : Int) < ((614400 : Nat) : Int)
      omega

/-! ### The three columns the reference reads: x, y and the polarity of event `n` -/

theorem v2_eq (E : (⟨S16777216x4, .f32⟩ : BufTy).Contents (Elt Ideal)) (n : Fin 16777216) :
    val_main_v2 (F := Ideal) E (ix1 n) = E (ix2 n 0) := by
  rw [val_main_v2_apply, val_main_v1_apply, val_main_v0_apply]
  congr 1
  funext a
  match a with
  | ⟨0, _⟩ => exact Fin.ext (Nat.mod_eq_of_lt n.isLt)
  | ⟨1, _⟩ => rfl

theorem v4_eq (E : (⟨S16777216x4, .f32⟩ : BufTy).Contents (Elt Ideal)) (n : Fin 16777216) :
    val_main_v4 (F := Ideal) E (ix1 n) = E (ix2 n 1) := by
  rw [val_main_v4_apply, val_main_v3_apply, val_main_v0_apply]
  congr 1
  funext a
  match a with
  | ⟨0, _⟩ => exact Fin.ext (Nat.mod_eq_of_lt n.isLt)
  | ⟨1, _⟩ => rfl

theorem v8_eq (E : (⟨S16777216x4, .f32⟩ : BufTy).Contents (Elt Ideal)) (n : Fin 16777216) :
    val_main_v8 (F := Ideal) E (ix1 n) = E (ix2 n 3) := by
  rw [val_main_v8_apply, val_main_v7_apply, val_main_v0_apply]
  congr 1
  funext a
  match a with
  | ⟨0, _⟩ => exact Fin.ext (Nat.mod_eq_of_lt n.isLt)
  | ⟨1, _⟩ => rfl

/-! ### The cell index of event `n`, as a real number and as a word -/

/-- The reference's float arithmetic on event `n`: x + 640 y + 307200 (p + 1)/2, the polarity written `2 b - 1`
    with `b` the polarity bit. On integers it is exact. -/
theorem v21_eq (E : (⟨S16777216x4, .f32⟩ : BufTy).Contents (Elt Ideal)) (n : Fin 16777216) (xi yi b : ℤ)
    (hx : E (ix2 n 0) = ((xi : ℝ) : EReal)) (hy : E (ix2 n 1) = ((yi : ℝ) : EReal))
    (hp : E (ix2 n 3) = (((2 * b - 1 : ℤ) : ℝ) : EReal)) :
    val_main_v21 (F := Ideal) E (ix1 n) = (((xi + 640 * yi + 307200 * b : ℤ) : ℝ) : EReal) := by
  rw [val_main_v21_apply, val_main_v18_apply, val_main_v20_apply, val_main_v17_apply, val_main_v15_apply,
    val_main_v13_apply, v2_eq, v4_eq, v8_eq, val_main_v16_apply, val_main_v19_apply, val_main_v12_apply,
    val_main_v14_apply, val_main_cst_0_apply, val_main_cst_1_apply, val_main_cst_2_apply, val_main_cst_3_apply,
    hx, hy, hp]
  simp only [Ideal.ofBits_def, Ideal.addf_def, Ideal.mulf_def, Ideal.hostDivf_def, ofBits_one, ofBits_two, ofBits_640,
    ofBits_307200]
  rw [Ideal.div_coe (by norm_num : (2 : ℝ) ≠ 0)]
  simp only [← EReal.coe_add, ← EReal.coe_mul]
  congr 1
  push_cast
  ring

/-- Converting a real number that is a nonnegative integer below 2^31 gives that integer's word. -/
theorem fptosi_int (k : ℤ) (h0 : 0 ≤ k) (h1 : k < 2147483648) :
    Ideal.fptosi 32 (((k : ℝ)) : EReal) = BitVec.ofInt 32 k := by
  have hk : (0 : ℝ) ≤ (k : ℝ) := by exact_mod_cast h0
  rw [Ideal.fptosi, Ideal.toIntClamped_coe, if_pos hk, Int.floor_intCast]
  congr 1
  have e : ((2 ^ (32 - 1) : ℕ) : ℤ) = 2147483648 := by norm_num
  rw [e, min_eq_right (by omega), max_eq_right (by omega)]

/-- Such a word, read signed, is the integer. -/
theorem word_toInt (k : ℤ) (h0 : 0 ≤ k) (h1 : k < 2147483648) : (BitVec.ofInt 32 k).toInt = k :=
  BitVec.toInt_ofInt_eq_self (by decide) (by norm_num; omega) (by norm_num; omega)

/-- The index word of event `n` when the float index is a nonnegative integer below 2^31: not negative, so the
    select that wraps negative indices around keeps it. -/
theorem v30_eq (E : (⟨S16777216x4, .f32⟩ : BufTy).Contents (Elt Ideal)) (n : Fin 16777216) (k : ℤ) (h0 : 0 ≤ k)
    (h1 : k < 2147483648) (h21 : val_main_v21 (F := Ideal) E (ix1 n) = ((k : ℝ) : EReal)) :
    val_main_v30 (F := Ideal) E (ix2 n 0) = BitVec.ofInt 32 k := by
  have h22 : val_main_v22 (F := Ideal) E (ix1 n) = BitVec.ofInt 32 k := by
    rw [val_main_v22_apply, h21]; exact fptosi_int k h0 h1
  have hi : idx_main_v30 (ix2 n 0) = ix1 n := by
    funext a; match a with | ⟨0, _⟩ => rfl
  have hs : (BitVec.ofInt 32 k).slt 0#32 = false := by
    rw [BitVec.slt_eq_decide, word_toInt k h0 h1]
    exact decide_eq_false (by simp; omega)
  have hc : IntOp.cmpi .slt (BitVec.ofInt 32 k) 0#32 = 0#1 := by
    show BitVec.ofBool ((BitVec.ofInt 32 k).slt 0#32) = 0#1
    rw [hs]; rfl
  rw [val_main_v30_apply, hi, val_main_v29_apply, val_main_v26_apply, h22, val_main_v25_apply, val_main_c_apply, hc,
    select_zero]

/-! ### Event `n` is scattered to a cell exactly when it lands in it -/

/-- Under the contract, update `n` lands on the flat cell `(q 480 + y) 640 + x` exactly when event `n` lands in
    cell `(q, y, x)`: the two sides compare the integers x + 640 y + 307200 b coordinate by coordinate. -/
theorem lands_iff (E : (⟨S16777216x4, .f32⟩ : BufTy).Contents (Elt Ideal)) (hC : Hist.Contract E) (n : Fin 16777216)
    (q : Fin 2) (y : Fin 480) (x : Fin 640) (c : Fin 614400) (hc : c.val = (q.val * 480 + y.val) * 640 + x.val) :
    D.resultIdx? (ix1 n) (val_main_v30 (F := Ideal) E) = some (ix1 c) ↔ Hist.Hits E n q y x := by
  obtain ⟨xi, yi, hx0, hx1, hy0, hy1, hx, hy, hp⟩ := hC n
  obtain ⟨b, hb, hpb⟩ : ∃ b : ℤ, (b = 0 ∨ b = 1) ∧ E (ix2 n 3) = (((2 * b - 1 : ℤ) : ℝ) : EReal) := by
    rcases hp with hp | hp
    · exact ⟨1, Or.inr rfl, by rw [hp]; norm_num⟩
    · exact ⟨0, Or.inl rfl, by rw [hp]; norm_num⟩
  have hk0 : 0 ≤ xi + 640 * yi + 307200 * b := by omega
  have hk1 : xi + 640 * yi + 307200 * b < 2147483648 := by omega
  have hq := q.isLt
  have hy' := y.isLt
  have hx' := x.isLt
  rw [resultIdx_iff, v30_eq E n _ hk0 hk1 (v21_eq E n xi yi b hx hy hpb), word_toInt _ hk0 hk1]
  unfold Hist.Hits
  rw [hx, hy, hpb, EReal.coe_eq_coe_iff, EReal.coe_eq_coe_iff, EReal.coe_eq_coe_iff]
  have e1 : ((xi : ℝ) = (x.val : ℝ)) ↔ xi = (x.val : ℤ) := by
    constructor <;> intro h <;> exact_mod_cast h
  have e2 : ((yi : ℝ) = (y.val : ℝ)) ↔ yi = (y.val : ℤ) := by
    constructor <;> intro h <;> exact_mod_cast h
  have e3 : ((((2 * b - 1 : ℤ)) : ℝ) = (if q.val = 1 then 1 else -1 : ℝ)) ↔ b = (q.val : ℤ) := by
    by_cases hq1 : q.val = 1
    · rw [if_pos hq1, hq1]
      constructor
      · intro h
        have h' : (2 * b - 1 : ℤ) = 1 := by exact_mod_cast h
        omega
      · intro h; rw [h]; norm_num
    · have hq0 : q.val = 0 := by omega
      rw [if_neg hq1, hq0]
      constructor
      · intro h
        have h' : (2 * b - 1 : ℤ) = -1 := by exact_mod_cast h
        omega
      · intro h; rw [h]; norm_num
  rw [e1, e2, e3, hc]
  push_cast
  constructor
  · intro h
    refine ⟨by omega, by omega, by omega⟩
  · rintro ⟨h1, h2, h3⟩
    omega

end Cert.ReferenceIdeal.RefWord

end
-- ==== Proof.RefValue.lean ====
/-
  The reference program's value under the events' contract: the binarised event histogram `Hist.G`.

  The reference scatters a 1 to the flat cell index of every event, over a zero array, and replaces every positive
  entry by 1. An exact scatter with an add body, read at a cell, is the operand there plus the sum of the updates
  landing there; an update lands on the flat cell of (q, y, x) exactly when its event lands in that cell, so the
  scattered array at a cell is the number of events landing in it, `Hist.count`, and the final select on
  "count > 0" gives `Hist.G`.
-/
import proofs.«152134_j55078660604232_2_alg».proof.Proof.RefWord

noncomputable section

open scoped BigOperators

namespace Cert.ReferenceIdeal.RefValue

open Cert.ReferenceIdeal Cert.ReferenceIdeal.ReadP Cert.ReferenceIdeal.RefWord Idealize.ShloMosaic Idealize.ShloMosaic.ValueIdx Cert.RefConsts

variable [Cert.ReferenceIdeal.Facts]

/-! ### The scattered array counts the events landing in each cell -/

/-- The exact scatter with an add body, read at an element: the operand there plus the updates landing there. -/
theorem scatterAdd_apply {s si su : Shape} (d : ScatterDims s si su) {w : Nat} (x : FVec Ideal s .f32)
    (idx : IVec si w) (upd : FVec Ideal su .f32) (i : s.Idx) :
    Host.scatterAdd d x idx upd i =
      x i + ∑ j ∈ Finset.univ.filter (fun j => d.resultIdx? j idx = some i), upd j := rfl

theorem v31_apply (E : (⟨S16777216x4, .f32⟩ : BufTy).Contents (Elt Ideal)) (c : S614400.Idx) :
    val_main_v31 (F := Ideal) E c = val_main_v23 (F := Ideal) c +
      ∑ j ∈ Finset.univ.filter (fun j => D.resultIdx? j (val_main_v30 (F := Ideal) E) = some c),
        val_main_v24 (F := Ideal) j :=
  scatterAdd_apply D (val_main_v23 (F := Ideal)) (val_main_v30 (F := Ideal) E) (val_main_v24 (F := Ideal)) c

/-- A rank-1 index set is its coordinate range. -/
def idxEquiv1 {N : Nat} : (⟨1, ![N]⟩ : Shape).Idx ≃ Fin N where
  toFun i := i 0
  invFun a := ix1 a
  left_inv i := (eq_ix1 i).symm
  right_inv _ := rfl

/-- A sum over a rank-1 index set is the sum over the coordinate. -/
theorem sum_idx1 {M : Type*} [AddCommMonoid M] {N : Nat} (f : (⟨1, ![N]⟩ : Shape).Idx → M) :
    ∑ i, f i = ∑ a : Fin N, f (ix1 a) := by
  rw [← Equiv.sum_comp (idxEquiv1 (N := N)).symm f]
  rfl

/-- The scatter adds 1 to a zero array at the cell of every event: at a cell, the number of events landing in it. -/
theorem v31_eq (E : (⟨S16777216x4, .f32⟩ : BufTy).Contents (Elt Ideal)) (hC : Hist.Contract E)
    (q : Fin 2) (y : Fin 480) (x : Fin 640) (c : Fin 614400) (hc : c.val = (q.val * 480 + y.val) * 640 + x.val) :
    val_main_v31 (F := Ideal) E (ix1 c) = Hist.count E q y x := by
  refine (v31_apply E (ix1 c)).trans ?_
  rw [val_main_v23_apply, val_main_cst_4_apply, Ideal.ofBits_def, ofBits_zero, zero_add, Finset.sum_filter, sum_idx1]
  unfold Hist.count
  refine Finset.sum_congr rfl fun n _ => ?_
  rw [val_main_v24_apply, val_main_cst_5_apply, Ideal.ofBits_def, ofBits_one]
  by_cases h : Hist.Hits E n q y x
  · rw [if_pos h, if_pos ((lands_iff E hC n q y x c hc).mpr h)]
    rfl
  · rw [if_neg h, if_neg (mt (lands_iff E hC n q y x c hc).mp h)]

/-! ### The reference's result -/

/-- Under the contract the reference computes the binarised event histogram. -/
theorem ref_eq (E : (⟨S16777216x4, .f32⟩ : BufTy).Contents (Elt Ideal)) (hC : Hist.Contract E) :
    val_main_v36 (F := Ideal) E = Hist.G E := by
  funext i
  obtain ⟨a, q, y, x, rfl⟩ : ∃ a q y x, i = ix4 a q y x := ⟨_, _, _, _, eq_ix4 i⟩
  obtain rfl : a = 0 := Subsingleton.elim _ _
  have hq := q.isLt
  have hy' := y.isLt
  have hx' := x.isLt
  have hlt : (q.val * 480 + y.val) * 640 + x.val < 614400 := by omega
  have hi : idx_main_v36 (ix4 (0 : Fin 1) q y x) = ix1 ⟨(q.val * 480 + y.val) * 640 + x.val, hlt⟩ := by
    funext a
    match a with
    | ⟨0, _⟩ =>
      refine Fin.ext ?_
      show ((0 * 2 + q.val) * 480 + y.val) * 640 + x.val = (q.val * 480 + y.val) * 640 + x.val
      omega
  have hcmp : ∀ v : EReal, FloatOps.cmpf (F := Ideal) (φ := .f32) .ogt v (0 : EReal) = Ideal.cmp .ogt v 0 :=
    fun _ => rfl
  rw [val_main_v36_apply, hi, val_main_v35_apply, val_main_v33_apply, v31_eq E hC q y x _ rfl, val_main_v32_apply,
    val_main_cst_7_apply, val_main_v34_apply, val_main_cst_8_apply, Ideal.ofBits_def, Ideal.ofBits_def, ofBits_zero,
    ofBits_one, hcmp]
  by_cases h : 0 < Hist.count E q y x
  · have hb : Ideal.cmp .ogt (Hist.count E q y x) 0 = 1#1 := by simp [Ideal.cmp, h]
    rw [hb, select_one]
    exact (if_pos h).symm
  · have hb : Ideal.cmp .ogt (Hist.count E q y x) 0 = 0#1 := by simp [Ideal.cmp, h]
    rw [hb, select_zero, Hist.count_eq_zero_of_not_pos E q y x h]
    exact (if_neg h).symm

end Cert.ReferenceIdeal.RefValue

end
-- ==== Proof.lean ====
/-
  The certificate: the kernel program (an event-camera histogram as one-hot matrix products, accumulated over a grid,
  then binarised by the host) against its reference (a scatter-add of ones at the events' flat cell indices, then
  binarised).  Inside the contract on the events — x and y pixel coordinates of the 640 x 480 sensor, the polarity
  one of -1 and +1 — both end, at the ideal instance, at the same array: 1 at each cell of the 2 x 480 x 640 grid some
  event lands in, 0 elsewhere (`Hist.G`).  The kernel side: each grid point adds to a scratch accumulator the number of
  its block's events per (row, lane) entry, a run of 2048 points is written back as one slab, and the host adds the
  two slabs and compares with zero.  The reference side: the scatter's sum at a cell is the number of events whose flat
  index is the cell.  Both numbers are the cell's event count.  The three frames are the generated frame
  certificates and the reference's run; the ideal pass rewrote nothing, so `preserves` is trivial.
-/
import proofs.«152134_j55078660604232_2_alg».proof.Defs
import proofs.«152134_j55078660604232_2_alg».proof.Proof.Gen.Kernel
import proofs.«152134_j55078660604232_2_alg».proof.Proof.Gen.Kernel.Frame
import proofs.«152134_j55078660604232_2_alg».proof.Proof.Gen.KernelIdeal
import proofs.«152134_j55078660604232_2_alg».proof.Proof.Gen.KernelIdeal.Frame
import proofs.«152134_j55078660604232_2_alg».proof.Proof.Gen.ReferenceIdeal
import proofs.«152134_j55078660604232_2_alg».proof.Proof.Gen.Pre_finite_inputs
import proofs.«152134_j55078660604232_2_alg».proof.Proof.KernelValue
import proofs.«152134_j55078660604232_2_alg».proof.Proof.RefValue
import proofs.«152134_j55078660604232_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the events, inside the contract, both programs end at the binarised histogram. -/
theorem algebraic : Cert.algebraic_KernelIdeal_ReferenceIdeal := by
  intro m ρ m' ρ' hpre hagree
  refine ⟨fun c => Cert.KernelIdeal.KV.tail (Cert.KernelIdeal.KV.outArr m c), Cert.KernelIdeal.KV.run (F := Ideal) m ρ, ?_⟩
  refine (θ_run Cert.ReferenceIdeal.defs _ _).mono (fun _ h c => ⟨(h c).1.trans ?_, (h c).2⟩)
    (Cert.ReferenceIdeal.ValueP.run (F := Ideal) m' ρ')
  have hC : Hist.Contract (m ((c.tc : Thread Cert.KernelIdeal.nD Cert.KernelIdeal.τ).loc Cert.KernelIdeal.main_arg0)) :=
    Cert.PreDecode.contract_of_pre _ (hpre c)
  rw [Cert.ReferenceIdeal.ReadP.val_main_v36_eq, hagree c, Cert.ReferenceIdeal.RefValue.ref_eq _ hC]
  exact (Cert.KernelIdeal.KW.kernel_eq m c hC).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
